-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x1024 : Shape := ⟨3, ![2, 8192, 1024]⟩
abbrev S8192x1024 : Shape := ⟨2, ![8192, 1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S2x8192x1024 .f32) (main_arg1 : FVec F S8192x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S2x8192x1024 : Shape := ⟨3, ![2, 8192, 1024]⟩
abbrev S8192x1024 : Shape := ⟨2, ![8192, 1024]⟩
abbrev S16x1024 : Shape := ⟨2, ![16, 1024]⟩
abbrev S_ : Shape := ⟨0, ![]⟩

abbrev nBuf : Table → Nat
  | .hbm => 3
  | .local .scVector .vmem => 6
  | _ => 0

abbrev bufTy : (tb : Table) → Fin (nBuf tb) → BufTy
  | .hbm, ⟨0, _⟩ => ⟨S2x8192x1024, .f32⟩
  | .hbm, ⟨1, _⟩ => ⟨S8192x1024, .f32⟩
  | .hbm, ⟨2, _⟩ => ⟨S8192x1024, .f32⟩
  | .local .scVector .vmem, ⟨0, _⟩ => ⟨S16x1024, .f32⟩
  | .local .scVector .vmem, ⟨1, _⟩ => ⟨S16x1024, .f32⟩
  | .local .scVector .vmem, ⟨2, _⟩ => ⟨S16x1024, .f32⟩
  | .local .scVector .vmem, ⟨3, _⟩ => ⟨S16x1024, .f32⟩
  | .local .scVector .vmem, ⟨4, _⟩ => ⟨S16x1024, .f32⟩
  | .local .scVector .vmem, ⟨5, _⟩ => ⟨S16x1024, .f32⟩
  | _, _ => ⟨S2x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_0 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  hcc0_scratch6 : 0 + S_.numel ≤ 12
  hcc0_scratch7 : 1 + S_.numel ≤ 12
  hcc0_scratch8 : 2 + S_.numel ≤ 12
  hcc0_scratch9 : 3 + S_.numel ≤ 12
  hcc0_scratch10 : 4 + S_.numel ≤ 12
  hcc0_scratch11 : 5 + S_.numel ≤ 12
  hcc0_scratch12 : 6 + S_.numel ≤ 12
  hcc0_scratch13 : 7 + S_.numel ≤ 12
  hcc0_scratch14 : 8 + S_.numel ≤ 12
  hcc0_scratch15 : 9 + S_.numel ≤ 12
  hcc0_scratch16 : 10 + S_.numel ≤ 12
  hcc0_scratch17 : 11 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 16), ∀ a, (k0_off1 i (BitVec.ofNat 32 (16 * r.val))) a + S16x1024.size a ≤ S8192x1024.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scratch14 : DmaSems sig S_ := SemArray.consecutive 8 S_ hcc0_scratch14
abbrev cc0_scratch15 : DmaSems sig S_ := SemArray.consecutive 9 S_ hcc0_scratch15
abbrev cc0_scratch16 : DmaSems sig S_ := SemArray.consecutive 10 S_ hcc0_scratch16
abbrev cc0_scratch17 : DmaSems sig S_ := SemArray.consecutive 11 S_ hcc0_scratch17

class Facts : Prop extends Facts₀ where

variable [Facts]
-- ==== ReferenceIdeal.lean ====
abbrev S2x8192x1024 : Shape := ⟨3, ![2, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  gather_S8192x1024_S8192x1_S8192x1024_1_0_n_n_0_1_11024_wf : GatherDims.WF S8192x1024 S8192x1 S8192x1024 [1] [0] [] [0] [] 1 ![1, 1024]

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

class Facts : Prop extends Facts₀ where

variable [Facts]
-- ==== Proof.CopyBaseW.lean ====
/-
  The block copy's common ground. The program copies an 8192 × 1024 table into the result array, row block by row
  block: the 32 vector subcores (2 SparseCores × 16) each own 256 consecutive rows, subcore `s` of SparseCore `c` the
  rows from `512 s + 256 c`, and move them in sixteen blocks of sixteen rows through six staging buffers of their
  own tile memory — table block → staging buffer → result block, each transfer on a semaphore of its own slot.
  Here: the cut of the 8192 rows into 512 blocks of sixteen (block `32 s + 16 c + r` is the `r`-th of that subcore),
  that the blocks are pairwise disjoint and cover the array, what the launch's handshakes hand each SparseCore and
  each subcore (its blocks of the table, read, and of the result, written) and what comes back (the result's blocks
  holding the table's rows), and that the slice the subcore's program takes at offset `16 r` past its base row is
  that block.
-/
import proofs.«202649_g20452634264206_cont_8to1_1943_16_alg».proof.Defs
import Idealize.ShloMosaic.Lib.SparseCore.Launch
import Idealize.ShloMosaic.Lib.StableHlo.Run
import Idealize.ShloMosaic.Lib.Pipeline.Kit
import Idealize.ShloMosaic.Lib.Tactic
import proofs.«202649_g20452634264206_cont_8to1_1943_16_alg».proof.Proof.Gen.Kernel
import proofs.«202649_g20452634264206_cont_8to1_1943_16_alg».proof.Proof.Gen.Kernel.Skeleton

noncomputable section

namespace Cert.Proof.CopyKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

local notation "eW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S8192x1024 EltTy.f32)
local notation "bW0" => (Memref.whole Cert.Kernel.cc0_scratch0 : Memref Cert.Kernel.sig Kind.scVector Space.vmem Cert.Kernel.S16x1024 EltTy.f32)
local notation "bW1" => (Memref.whole Cert.Kernel.cc0_scratch1 : Memref Cert.Kernel.sig Kind.scVector Space.vmem Cert.Kernel.S16x1024 EltTy.f32)
local notation "bW2" => (Memref.whole Cert.Kernel.cc0_scratch2 : Memref Cert.Kernel.sig Kind.scVector Space.vmem Cert.Kernel.S16x1024 EltTy.f32)
local notation "bW3" => (Memref.whole Cert.Kernel.cc0_scratch3 : Memref Cert.Kernel.sig Kind.scVector Space.vmem Cert.Kernel.S16x1024 EltTy.f32)
local notation "bW4" => (Memref.whole Cert.Kernel.cc0_scratch4 : Memref Cert.Kernel.sig Kind.scVector Space.vmem Cert.Kernel.S16x1024 EltTy.f32)
local notation "bW5" => (Memref.whole Cert.Kernel.cc0_scratch5 : Memref Cert.Kernel.sig Kind.scVector Space.vmem Cert.Kernel.S16x1024 EltTy.f32)

abbrev xLoc (d : Dev nD) : Loc nD τ sig := (SparseCore.T d).loc main_arg0
abbrev eLoc (d : Dev nD) : Loc nD τ sig := (SparseCore.T d).loc main_arg1
abbrev oLoc (d : Dev nD) : Loc nD τ sig := (SparseCore.T d).loc main_v0

variable [FloatOps F]

abbrev cV (L : grid0.Coords) : Fin τ.nSC := (L 0).castLE hcore0
abbrev jV (L : grid0.Coords) : Fin τ.nSub := (L 1).castLE hsub0

/-- The sixteen-row block of the table at row offset `w` past the subcore's base row. -/
abbrev ckRect (L : grid0.Coords) (w : BitVec 32) (h : ∀ a, (k0_off1 L w) a + S16x1024.size a ≤ S8192x1024.size a) : Rect S8192x1024 :=
  Rect.unit (s := S8192x1024) (k0_off1 L w) S16x1024.size h

/-! ## The rows of the table, cut into 512 blocks of sixteen rows

Subcore `s` of SparseCore `c` moves the sixteen blocks `32 s + 16 c + r`, `r < 16`: its base row is
`512 s + 256 c` and block `r` of its share starts sixteen rows after block `r - 1`. -/

theorem hdiv : 512 ∣ S8192x1024.size 0 := ⟨16, rfl⟩

/-- The number of the block subcore `s` of SparseCore `c` moves `r`-th. -/
def jIdx (c : Fin 2) (s : Fin 16) (r : Fin 16) : Fin 512 := ⟨32 * s.val + 16 * c.val + r.val, by omega⟩

theorem jIdx_inj {c c' : Fin 2} {s s' : Fin 16} {r r' : Fin 16} (h : jIdx c s r = jIdx c' s' r') : c = c' ∧ s = s' ∧ r = r' := by
  have h' : 32 * s.val + 16 * c.val + r.val = 32 * s'.val + 16 * c'.val + r'.val := congrArg Fin.val h
  refine ⟨Fin.ext ?_, Fin.ext ?_, Fin.ext ?_⟩ <;> omega

theorem jIdx_surj (j : Fin 512) : ∃ c s r, jIdx c s r = j :=
  ⟨⟨(j.val % 32) / 16, by omega⟩, ⟨j.val / 32, by omega⟩, ⟨j.val % 16, by omega⟩, Fin.ext (by show 32 * (j.val / 32) + 16 * ((j.val % 32) / 16) + j.val % 16 = j.val; omega)⟩

/-- Block `j`: rows `16 j … 16 j + 15`, every column. -/
abbrev blk (j : Fin 512) : Rect S8192x1024 := Rect.part (s := S8192x1024) (a₀ := 0) hdiv j
abbrev blkSet (c : Fin 2) (s : Fin 16) (r : Fin 16) : Finset S8192x1024.Idx := (blk (jIdx c s r)).set

abbrev T3 : Type := Fin 2 × Fin 16 × Fin 16
abbrev blkSet3 (t : T3) : Finset S8192x1024.Idx := blkSet t.1 t.2.1 t.2.2

theorem blk_disjoint : ∀ t ∈ (Finset.univ : Finset T3), ∀ t' ∈ (Finset.univ : Finset T3), t ≠ t' → Disjoint (blkSet3 t) (blkSet3 t') := by
  intro t _ t' _ h
  refine Rect.part_disjoint hdiv fun e => h ?_
  obtain ⟨h1, h2, h3⟩ := jIdx_inj e
  exact Prod.ext h1 (Prod.ext h2 h3)

theorem blk_cover : (Finset.univ : Finset T3).biUnion blkSet3 = Finset.univ := by
  ext i
  simp only [Finset.mem_biUnion, Finset.mem_univ, true_and, iff_true]
  obtain ⟨j, hj⟩ := Rect.exists_mem_part hdiv i
  obtain ⟨c, s, r, rfl⟩ := jIdx_surj j
  exact ⟨(c, s, r), hj⟩

/-! ## What the handshakes carry

The call hands each SparseCore the blocks its subcores move, of the table (read) and of the result (written);
each subcore its sixteen; they come back with the result's blocks holding the table's. -/

abbrev eBlk (d : Dev nD) (c : Fin 2) (s : Fin 16) (r : Fin 16) (f : Buf (Elt F) (eLoc d)) : sProp 𝕄 := eLoc d ↦[blkSet c s r]{fullShare} f
abbrev oBlk (d : Dev nD) (c : Fin 2) (s : Fin 16) (r : Fin 16) (f : Buf (Elt F) (oLoc d)) : sProp 𝕄 := oLoc d ↦[blkSet c s r]{fullShare} f

/-- The table's launch contents, read as contents of the result array (one shape, one element type). -/
abbrev eAsO (d : Dev nD) : Buf (Elt F) (oLoc d) := m (eLoc d)

theorem nCore_zero : (K (F := F)).nCore 0 = 2 := rfl

/-- A subcore's sixteen blocks of both arrays, the result's at contents `g`. -/
abbrev tileRes (d : Dev nD) (c : Fin 2) (s : Fin 16) (g : Buf (Elt F) (oLoc d)) : sProp 𝕄 :=
  bigSep Finset.univ fun r : Fin 16 => iprop(eBlk d c s r (m (eLoc d)) ∗ oBlk d c s r g)

def P : (K (F := F)).Pay (nD := nD) (Val := Elt F) (Name := ℕ) (U := UU) where
  st := fun q d c => match q with | 0 => bigSep Finset.univ fun s : Fin 16 => tileRes m d (Fin.cast nCore_zero c) s (m (oLoc d))
  dn := fun q d c => match q with | 0 => bigSep Finset.univ fun s : Fin 16 => tileRes m d (Fin.cast nCore_zero c) s (eAsO m d)
  go := fun q d c i => match q with | 0 => tileRes m d (Fin.cast nCore_zero c) (Fin.cast nSub_zero i) (m (oLoc d))
  td := fun q d c i => match q with | 0 => tileRes m d (Fin.cast nCore_zero c) (Fin.cast nSub_zero i) (eAsO m d)
  x := fun _ _ => iprop(emp)

instance P_storable : (P (F := F) m).IsStorable where
  st q d c := match q with
    | 0 => (inferInstance : BI.Storable (upEmb : UEmb _ 𝕄) (bigSep Finset.univ fun s : Fin 16 => tileRes m d (Fin.cast nCore_zero c) s (m (oLoc d))))
  dn q d c := match q with
    | 0 => (inferInstance : BI.Storable (upEmb : UEmb _ 𝕄) (bigSep Finset.univ fun s : Fin 16 => tileRes m d (Fin.cast nCore_zero c) s (eAsO m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (eAsO m d)))

/-! ## A subcore's blocks as its slices address them -/

abbrev cL (L : grid0.Coords) : Fin 2 := L 0
abbrev sL (L : grid0.Coords) : Fin 16 := L 1

omit [FloatOps F] in
/-- The slice at offset `16 r` past the subcore's base row is block `32 s + 16 c + r`. -/
theorem ckRect_eq (L : grid0.Coords) (r : Fin 16) :
    ckRect L (BitVec.ofNat 32 (16 * r.val)) (k0_off1_inb L r) = blk (jIdx (cL L) (sL L) r) := by
  unfold ckRect blk Rect.part Rect.block
  congr 1 <;> funext a
  · rw [k0_off1_eq]
    match a with
    | 0 => simp [Shape.partIx, Shape.partSize, jIdx, cL, sL]; omega
    | 1 => simp [Shape.partIx, Shape.partSize]
  · match a with
    | 0 => simp [Shape.partSize]
    | 1 => simp [Shape.partSize]

end Cert.Proof.CopyKernel

end
-- ==== Proof.CopyTileW.lean ====
/-
  One vector subcore's task of the block copy, and the launch theorem's obligation for it. The subcore starts the loads
  of its first six blocks of the table into its six staging buffers; then, block by block, it waits for the block's
  load, starts the block's transfer from the staging buffer to the result array, and — from the second round on —
  before loading a staging buffer again waits for that buffer's last outgoing transfer; at the end it waits for the
  last six outgoing transfers. Every transfer has a semaphore of its own slot (six for loads, six for sends), and no
  buffer is touched between a transfer's start and its wait, so each block of the result ends holding exactly the
  table's block: read from the table whole into the staging buffer, written from it whole onto the block.
-/
import proofs.«202649_g20452634264206_cont_8to1_1943_16_alg».proof.Proof.CopyBaseW

noncomputable section

namespace Cert.Proof.CopyKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (ρ : Dev nD → PrngReg)

local notation "eW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S8192x1024 EltTy.f32)
local notation "bW0" => (Memref.whole Cert.Kernel.cc0_scratch0 : Memref Cert.Kernel.sig Kind.scVector Space.vmem Cert.Kernel.S16x1024 EltTy.f32)
local notation "bW1" => (Memref.whole Cert.Kernel.cc0_scratch1 : Memref Cert.Kernel.sig Kind.scVector Space.vmem Cert.Kernel.S16x1024 EltTy.f32)
local notation "bW2" => (Memref.whole Cert.Kernel.cc0_scratch2 : Memref Cert.Kernel.sig Kind.scVector Space.vmem Cert.Kernel.S16x1024 EltTy.f32)
local notation "bW3" => (Memref.whole Cert.Kernel.cc0_scratch3 : Memref Cert.Kernel.sig Kind.scVector Space.vmem Cert.Kernel.S16x1024 EltTy.f32)
local notation "bW4" => (Memref.whole Cert.Kernel.cc0_scratch4 : Memref Cert.Kernel.sig Kind.scVector Space.vmem Cert.Kernel.S16x1024 EltTy.f32)
local notation "bW5" => (Memref.whole Cert.Kernel.cc0_scratch5 : Memref Cert.Kernel.sig Kind.scVector Space.vmem Cert.Kernel.S16x1024 EltTy.f32)

variable [FloatOps F]

section Own
variable (d : Dev nD) (c : Fin τ.nSC) (i : Fin τ.nSub)

omit [FloatOps F] in
/-- A vector subcore's scoped semaphore cells are its twelve DMA semaphores. -/
theorem ownCells_V : ownCells (sig := sig) (V d c i : Thread nD τ)
    = (Finset.univ : Finset (DmaSem sig)).map ⟨fun k => ((V d c i, SemLoc.dma k) : GSem nD τ sig), fun _ _ e => SemLoc.dma.inj (Prod.mk.inj e).2⟩ := by
  have hreg : ∀ s : Sem sig, ¬ (SemLoc.reg s : SemLoc sig).isScoped .scVector = true := by decide
  have hdma : ∀ k : DmaSem sig, (SemLoc.dma k : SemLoc sig).isScoped .scVector = true := by decide
  ext g
  rw [mem_ownCells, Finset.mem_map]
  constructor
  · rintro ⟨h1, h2⟩
    obtain ⟨t, sm⟩ := g
    obtain rfl : t = V d c i := h1
    cases sm with
    | reg s => exact absurd h2 (hreg s)
    | dma k => exact ⟨k, Finset.mem_univ _, rfl⟩
  · rintro ⟨k, -, rfl⟩
    exact ⟨rfl, hdma k⟩

omit [FloatOps F] in
theorem ownSems0_V :
    (ownSems0 (V d c i) : sProp 𝕄)
      = iprop(semVal ((V d c i, SemLoc.dma cc0_scratch6.sem) : GSem nD τ sig) 0
          ∗ semVal ((V d c i, SemLoc.dma cc0_scratch7.sem) : GSem nD τ sig) 0
          ∗ semVal ((V d c i, SemLoc.dma cc0_scratch8.sem) : GSem nD τ sig) 0
          ∗ semVal ((V d c i, SemLoc.dma cc0_scratch9.sem) : GSem nD τ sig) 0
          ∗ semVal ((V d c i, SemLoc.dma cc0_scratch10.sem) : GSem nD τ sig) 0
          ∗ semVal ((V d c i, SemLoc.dma cc0_scratch11.sem) : GSem nD τ sig) 0
          ∗ semVal ((V d c i, SemLoc.dma cc0_scratch12.sem) : GSem nD τ sig) 0
          ∗ semVal ((V d c i, SemLoc.dma cc0_scratch13.sem) : GSem nD τ sig) 0
          ∗ semVal ((V d c i, SemLoc.dma cc0_scratch14.sem) : GSem nD τ sig) 0
          ∗ semVal ((V d c i, SemLoc.dma cc0_scratch15.sem) : GSem nD τ sig) 0
          ∗ semVal ((V d c i, SemLoc.dma cc0_scratch16.sem) : GSem nD τ sig) 0
          ∗ semVal ((V d c i, SemLoc.dma cc0_scratch17.sem) : GSem nD τ sig) 0) := by
  unfold SparseCore.Cfg.ownSems0
  rw [ownCells_V, bigSep_map,
    bigSep_univ_eq_bigSepL [cc0_scratch6.sem, cc0_scratch7.sem, cc0_scratch8.sem, cc0_scratch9.sem, cc0_scratch10.sem, cc0_scratch11.sem, cc0_scratch12.sem, cc0_scratch13.sem, cc0_scratch14.sem, cc0_scratch15.sem, cc0_scratch16.sem, cc0_scratch17.sem] (by decide) (by decide)]
  rfl

end Own

section OwnBufs
variable (d : Dev nD) (c : Fin τ.nSC) (i : Fin τ.nSub)

omit [FloatOps F] in
/-- The six staging buffers are among the subcore's own: they are them, at some contents, and the rest. -/
theorem ownBufs_V :
    (ownBufs (V d c i) : sProp 𝕄)
      = iprop((∃ f, (V d c i : Thread nD τ).loc cc0_scratch0 ↦{fullShare} f)
          ∗ (∃ f, (V d c i : Thread nD τ).loc cc0_scratch1 ↦{fullShare} f)
          ∗ (∃ f, (V d c i : Thread nD τ).loc cc0_scratch2 ↦{fullShare} f)
          ∗ (∃ f, (V d c i : Thread nD τ).loc cc0_scratch3 ↦{fullShare} f)
          ∗ (∃ f, (V d c i : Thread nD τ).loc cc0_scratch4 ↦{fullShare} f)
          ∗ (∃ f, (V d c i : Thread nD τ).loc cc0_scratch5 ↦{fullShare} f)
          ∗ bigSep (((((((ownRefs (τ := τ) (.scVector c i)).erase ((Proc.scVector c i).devRef cc0_scratch0)).erase ((Proc.scVector c i).devRef cc0_scratch1)).erase ((Proc.scVector c i).devRef cc0_scratch2)).erase ((Proc.scVector c i).devRef cc0_scratch3)).erase ((Proc.scVector c i).devRef cc0_scratch4)).erase ((Proc.scVector c i).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := ((Proc.scVector c i).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector c i) (b := ((Proc.scVector c i).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector c i) (b := ((Proc.scVector c i).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector c i) (b := ((Proc.scVector c i).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector c i) (b := ((Proc.scVector c i).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector c i) (b := ((Proc.scVector c i).devRef cc0_scratch5)) rfl⟩⟩⟩⟩⟩)]

end OwnBufs

section Tile
variable (d : Dev nD) (L : grid0.Coords)

abbrev thr : Thread nD τ := V d (cV L) (jV L)

/-- The table's block at offset `w`, and the result's, as the subcore's slices address them. -/
abbrev ePts (w : BitVec 32) (h : ∀ a, (k0_off1 L w) a + S16x1024.size a ≤ S8192x1024.size a) (f : Buf (Elt F) (eLoc d)) : sProp 𝕄 :=
  ((eW).slice (ckRect L w h) (fun _ => rfl)).view.loc (thr d L) ↦[((eW).slice (ckRect L w h) (fun _ => rfl)).view.set]{fullShare} f
abbrev oPts (w : BitVec 32) (h : ∀ a, (k0_off1 L w) a + S16x1024.size a ≤ S8192x1024.size a) (f : Buf (Elt F) (oLoc d)) : sProp 𝕄 :=
  ((oW).slice (ckRect L w h) (fun _ => rfl)).view.loc (thr d L) ↦[((oW).slice (ckRect L w h) (fun _ => rfl)).view.set]{fullShare} f
abbrev bPts0 (g : Buf (Elt F) ((thr d L).loc cc0_scratch0)) : sProp 𝕄 := (bW0).view.loc (thr d L) ↦{fullShare} g
abbrev bPts1 (g : Buf (Elt F) ((thr d L).loc cc0_scratch1)) : sProp 𝕄 := (bW1).view.loc (thr d L) ↦{fullShare} g
abbrev bPts2 (g : Buf (Elt F) ((thr d L).loc cc0_scratch2)) : sProp 𝕄 := (bW2).view.loc (thr d L) ↦{fullShare} g
abbrev bPts3 (g : Buf (Elt F) ((thr d L).loc cc0_scratch3)) : sProp 𝕄 := (bW3).view.loc (thr d L) ↦{fullShare} g
abbrev bPts4 (g : Buf (Elt F) ((thr d L).loc cc0_scratch4)) : sProp 𝕄 := (bW4).view.loc (thr d L) ↦{fullShare} g
abbrev bPts5 (g : Buf (Elt F) ((thr d L).loc cc0_scratch5)) : sProp 𝕄 := (bW5).view.loc (thr d L) ↦{fullShare} g
abbrev sem0 (s : DmaSem sig) : sProp 𝕄 := semVal (thr d L, SemLoc.dma s) 0

omit [FloatOps F] in
theorem set_eCk (r : Fin 16) :
    ((eW).slice (ckRect L (BitVec.ofNat 32 (16 * r.val)) (k0_off1_inb L r)) (fun _ => rfl)).view.set = blkSet (cL L) (sL L) r := by
  show ((View.whole (main_arg1_scv : Ref sig .scVector)).slice _).set = _
  rw [View.set_slice_whole, ckRect_eq]
omit [FloatOps F] in
theorem set_oCk (r : Fin 16) :
    ((oW).slice (ckRect L (BitVec.ofNat 32 (16 * r.val)) (k0_off1_inb L r)) (fun _ => rfl)).view.set = blkSet (cL L) (sL L) r := by
  show ((View.whole (main_v0_scv : Ref sig .scVector)).slice _).set = _
  rw [View.set_slice_whole, ckRect_eq]

omit [FloatOps F] in
/-- A block held as the launch hands it is the block held as the subcore's slice addresses it. -/
theorem pts_e (r : Fin 16) (f : Buf (Elt F) (eLoc d)) :
    ePts d L (BitVec.ofNat 32 (16 * r.val)) (k0_off1_inb L r) f = eBlk d (cL L) (sL L) r f := by
  unfold ePts; rw [set_eCk]
omit [FloatOps F] in
theorem pts_o (r : Fin 16) (f : Buf (Elt F) (oLoc d)) :
    oPts d L (BitVec.ofNat 32 (16 * r.val)) (k0_off1_inb L r) f = oBlk d (cL L) (sL L) r f := by
  unfold oPts; rw [set_oCk]

omit [FloatOps F] in
/-- Reading back a view written whole gives what was written. -/
theorem read_written_whole {κ : Kind} {sp : Space} {s : Shape} {e : EltTy} (v : View sig κ sp s e) (f : v.ty.Contents (Elt F))
    (p : s.Idx → Elt F e) (x : s.Idx) : v.read (Elt F) (v.writes (Elt F) f [⟨Rect.whole s, p⟩]) x = p x := by
  have h := View.read_writes_cons_emb v f (Rect.whole s) p [] x
  rwa [Rect.emb_whole_apply] at h

omit [FloatOps F] in
/-- A result block overwritten whole by the table's block holds, on that block, the table's contents. -/
theorem written_block (w : BitVec 32) (h : ∀ a, (k0_off1 L w) a + S16x1024.size a ≤ S8192x1024.size a)
    (fe : Buf (Elt F) (eLoc d)) (fo : Buf (Elt F) (oLoc d)) (p : S16x1024.Idx → Elt F .f32)
    (hp : ∀ x, p x = View.read (Elt F) ((eW).slice (ckRect L w h) (fun _ => rfl)).view fe x) :
    oPts d L w h (((oW).slice (ckRect L w h) (fun _ => rfl)).view.writes (Elt F) fo [⟨Rect.whole (ckRect L w h).shape, p⟩])
      = oPts d L w h (fe : Buf (Elt F) (oLoc d)) := by
  refine pointsTo_congr fun i hi => ?_
  obtain ⟨x, -, rfl⟩ := Finset.mem_map.mp hi
  have h1 := read_written_whole (F := F) ((oW).slice (ckRect L w h) (fun _ => rfl)).view fo p x
  rw [View.read_apply, hp x, View.read_apply] at h1
  exact (cast_eq _ _).symm.trans (h1.trans (cast_eq _ _))

omit [FloatOps F] in
/-- A subcore's sixteen blocks, one by one. -/
theorem tileRes_unroll (c : Fin 2) (s : Fin 16) (g : Buf (Elt F) (oLoc d)) :
    tileRes m d c s g = iprop((eBlk d c s 0 (m (eLoc d)) ∗ oBlk d c s 0 g)
      ∗ (eBlk d c s 1 (m (eLoc d)) ∗ oBlk d c s 1 g)
      ∗ (eBlk d c s 2 (m (eLoc d)) ∗ oBlk d c s 2 g)
      ∗ (eBlk d c s 3 (m (eLoc d)) ∗ oBlk d c s 3 g)
      ∗ (eBlk d c s 4 (m (eLoc d)) ∗ oBlk d c s 4 g)
      ∗ (eBlk d c s 5 (m (eLoc d)) ∗ oBlk d c s 5 g)
      ∗ (eBlk d c s 6 (m (eLoc d)) ∗ oBlk d c s 6 g)
      ∗ (eBlk d c s 7 (m (eLoc d)) ∗ oBlk d c s 7 g)
      ∗ (eBlk d c s 8 (m (eLoc d)) ∗ oBlk d c s 8 g)
      ∗ (eBlk d c s 9 (m (eLoc d)) ∗ oBlk d c s 9 g)
      ∗ (eBlk d c s 10 (m (eLoc d)) ∗ oBlk d c s 10 g)
      ∗ (eBlk d c s 11 (m (eLoc d)) ∗ oBlk d c s 11 g)
      ∗ (eBlk d c s 12 (m (eLoc d)) ∗ oBlk d c s 12 g)
      ∗ (eBlk d c s 13 (m (eLoc d)) ∗ oBlk d c s 13 g)
      ∗ (eBlk d c s 14 (m (eLoc d)) ∗ oBlk d c s 14 g)
      ∗ (eBlk d c s 15 (m (eLoc d)) ∗ oBlk d c s 15 g)) := by
  unfold tileRes
  rw [bigSep_univ_eq_bigSepL [0, 1, 2, 3, 4, 5, 6, 7, 8, 9, 10, 11, 12, 13, 14, 15] (by decide) (by decide)]
  rfl

omit [FloatOps F] in
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-- One subcore's task: six loads ahead, then block by block — wait for the block's load, send it to the result, and
    before a staging buffer is loaded again wait for its last send — and the last six sends awaited. Each result block
    ends holding the table's block. -/
theorem tile_body (hF : (K (F := F)).Facts) (O : CellTallies nD τ sig (HIx 1)) (W : Waits sig (HIx 1)) (hO : ∀ g, O g none = 0) :
    iprop(levAts (K (F := F)).L (K (F := F)).lev ∗ emp ∗ tileRes m d (cL L) (sL L) (m (oLoc d))
        ∗ scopedBufs (thr d L) ∗ scopedSems0 (thr d L) ∗ owes (thr d L) O W)
      ⊢ wp frame (wpE (defs₀ (F := F)) 𝒱₀ (thr d L) none) Set.univ
          (cc0__copy_body L eW (Memref.isWhole_whole _) oW (Memref.isWhole_whole _)
            bW0 (Memref.isWhole_whole _) bW1 (Memref.isWhole_whole _) bW2 (Memref.isWhole_whole _) bW3 (Memref.isWhole_whole _) bW4 (Memref.isWhole_whole _) bW5 (Memref.isWhole_whole _)
            cc0_scratch6 cc0_scratch7 cc0_scratch8 cc0_scratch9 cc0_scratch10 cc0_scratch11 cc0_scratch12 cc0_scratch13 cc0_scratch14 cc0_scratch15 cc0_scratch16 cc0_scratch17)
          fun _ => iprop(tileRes m d (cL L) (sL L) (eAsO m d) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V,
    tileRes_unroll m d (cL L) (sL L) (m (oLoc d))]
  iintro ⟨#Hlv, -, ⟨⟨He0, Ho0⟩, ⟨He1, Ho1⟩, ⟨He2, Ho2⟩, ⟨He3, Ho3⟩, ⟨He4, Ho4⟩, ⟨He5, Ho5⟩, ⟨He6, Ho6⟩, ⟨He7, Ho7⟩, ⟨He8, Ho8⟩, ⟨He9, Ho9⟩, ⟨He10, Ho10⟩, ⟨He11, Ho11⟩, ⟨He12, Ho12⟩, ⟨He13, Ho13⟩, ⟨He14, Ho14⟩, ⟨He15, Ho15⟩⟩,
    ⟨⟨%g0, Hb0⟩, ⟨%g1, Hb1⟩, ⟨%g2, Hb2⟩, ⟨%g3, Hb3⟩, ⟨%g4, Hb4⟩, ⟨%g5, Hb5⟩, Hbufs⟩, ⟨Hs6, Hs7, Hs8, Hs9, Hs10, Hs11, Hs12, Hs13, Hs14, Hs15, Hs16, Hs17⟩, HO⟩
  ihave Hmw := ((K (F := F)).mayWaits_none (thr := thr d L) hO) $$ Hlv
  ihave He0 := (Entails.of_eq (show eBlk d (cL L) (sL L) 0 (m (eLoc d)) = ePts d L 0#32 (k0_off1_inb L 0) (m (eLoc d)) from (pts_e (F := F) d L 0 _).symm)) $$ He0
  ihave Ho0 := (Entails.of_eq (show oBlk d (cL L) (sL L) 0 (m (oLoc d)) = oPts d L 0#32 (k0_off1_inb L 0) (m (oLoc d)) from (pts_o (F := F) d L 0 _).symm)) $$ Ho0
  ihave He1 := (Entails.of_eq (show eBlk d (cL L) (sL L) 1 (m (eLoc d)) = ePts d L 16#32 (k0_off1_inb L 1) (m (eLoc d)) from (pts_e (F := F) d L 1 _).symm)) $$ He1
  ihave Ho1 := (Entails.of_eq (show oBlk d (cL L) (sL L) 1 (m (oLoc d)) = oPts d L 16#32 (k0_off1_inb L 1) (m (oLoc d)) from (pts_o (F := F) d L 1 _).symm)) $$ Ho1
  ihave He2 := (Entails.of_eq (show eBlk d (cL L) (sL L) 2 (m (eLoc d)) = ePts d L 32#32 (k0_off1_inb L 2) (m (eLoc d)) from (pts_e (F := F) d L 2 _).symm)) $$ He2
  ihave Ho2 := (Entails.of_eq (show oBlk d (cL L) (sL L) 2 (m (oLoc d)) = oPts d L 32#32 (k0_off1_inb L 2) (m (oLoc d)) from (pts_o (F := F) d L 2 _).symm)) $$ Ho2
  ihave He3 := (Entails.of_eq (show eBlk d (cL L) (sL L) 3 (m (eLoc d)) = ePts d L 48#32 (k0_off1_inb L 3) (m (eLoc d)) from (pts_e (F := F) d L 3 _).symm)) $$ He3
  ihave Ho3 := (Entails.of_eq (show oBlk d (cL L) (sL L) 3 (m (oLoc d)) = oPts d L 48#32 (k0_off1_inb L 3) (m (oLoc d)) from (pts_o (F := F) d L 3 _).symm)) $$ Ho3
  ihave He4 := (Entails.of_eq (show eBlk d (cL L) (sL L) 4 (m (eLoc d)) = ePts d L 64#32 (k0_off1_inb L 4) (m (eLoc d)) from (pts_e (F := F) d L 4 _).symm)) $$ He4
  ihave Ho4 := (Entails.of_eq (show oBlk d (cL L) (sL L) 4 (m (oLoc d)) = oPts d L 64#32 (k0_off1_inb L 4) (m (oLoc d)) from (pts_o (F := F) d L 4 _).symm)) $$ Ho4
  ihave He5 := (Entails.of_eq (show eBlk d (cL L) (sL L) 5 (m (eLoc d)) = ePts d L 80#32 (k0_off1_inb L 5) (m (eLoc d)) from (pts_e (F := F) d L 5 _).symm)) $$ He5
  ihave Ho5 := (Entails.of_eq (show oBlk d (cL L) (sL L) 5 (m (oLoc d)) = oPts d L 80#32 (k0_off1_inb L 5) (m (oLoc d)) from (pts_o (F := F) d L 5 _).symm)) $$ Ho5
  ihave He6 := (Entails.of_eq (show eBlk d (cL L) (sL L) 6 (m (eLoc d)) = ePts d L 96#32 (k0_off1_inb L 6) (m (eLoc d)) from (pts_e (F := F) d L 6 _).symm)) $$ He6
  ihave Ho6 := (Entails.of_eq (show oBlk d (cL L) (sL L) 6 (m (oLoc d)) = oPts d L 96#32 (k0_off1_inb L 6) (m (oLoc d)) from (pts_o (F := F) d L 6 _).symm)) $$ Ho6
  ihave He7 := (Entails.of_eq (show eBlk d (cL L) (sL L) 7 (m (eLoc d)) = ePts d L 112#32 (k0_off1_inb L 7) (m (eLoc d)) from (pts_e (F := F) d L 7 _).symm)) $$ He7
  ihave Ho7 := (Entails.of_eq (show oBlk d (cL L) (sL L) 7 (m (oLoc d)) = oPts d L 112#32 (k0_off1_inb L 7) (m (oLoc d)) from (pts_o (F := F) d L 7 _).symm)) $$ Ho7
  ihave He8 := (Entails.of_eq (show eBlk d (cL L) (sL L) 8 (m (eLoc d)) = ePts d L 128#32 (k0_off1_inb L 8) (m (eLoc d)) from (pts_e (F := F) d L 8 _).symm)) $$ He8
  ihave Ho8 := (Entails.of_eq (show oBlk d (cL L) (sL L) 8 (m (oLoc d)) = oPts d L 128#32 (k0_off1_inb L 8) (m (oLoc d)) from (pts_o (F := F) d L 8 _).symm)) $$ Ho8
  ihave He9 := (Entails.of_eq (show eBlk d (cL L) (sL L) 9 (m (eLoc d)) = ePts d L 144#32 (k0_off1_inb L 9) (m (eLoc d)) from (pts_e (F := F) d L 9 _).symm)) $$ He9
  ihave Ho9 := (Entails.of_eq (show oBlk d (cL L) (sL L) 9 (m (oLoc d)) = oPts d L 144#32 (k0_off1_inb L 9) (m (oLoc d)) from (pts_o (F := F) d L 9 _).symm)) $$ Ho9
  ihave He10 := (Entails.of_eq (show eBlk d (cL L) (sL L) 10 (m (eLoc d)) = ePts d L 160#32 (k0_off1_inb L 10) (m (eLoc d)) from (pts_e (F := F) d L 10 _).symm)) $$ He10
  ihave Ho10 := (Entails.of_eq (show oBlk d (cL L) (sL L) 10 (m (oLoc d)) = oPts d L 160#32 (k0_off1_inb L 10) (m (oLoc d)) from (pts_o (F := F) d L 10 _).symm)) $$ Ho10
  ihave He11 := (Entails.of_eq (show eBlk d (cL L) (sL L) 11 (m (eLoc d)) = ePts d L 176#32 (k0_off1_inb L 11) (m (eLoc d)) from (pts_e (F := F) d L 11 _).symm)) $$ He11
  ihave Ho11 := (Entails.of_eq (show oBlk d (cL L) (sL L) 11 (m (oLoc d)) = oPts d L 176#32 (k0_off1_inb L 11) (m (oLoc d)) from (pts_o (F := F) d L 11 _).symm)) $$ Ho11
  ihave He12 := (Entails.of_eq (show eBlk d (cL L) (sL L) 12 (m (eLoc d)) = ePts d L 192#32 (k0_off1_inb L 12) (m (eLoc d)) from (pts_e (F := F) d L 12 _).symm)) $$ He12
  ihave Ho12 := (Entails.of_eq (show oBlk d (cL L) (sL L) 12 (m (oLoc d)) = oPts d L 192#32 (k0_off1_inb L 12) (m (oLoc d)) from (pts_o (F := F) d L 12 _).symm)) $$ Ho12
  ihave He13 := (Entails.of_eq (show eBlk d (cL L) (sL L) 13 (m (eLoc d)) = ePts d L 208#32 (k0_off1_inb L 13) (m (eLoc d)) from (pts_e (F := F) d L 13 _).symm)) $$ He13
  ihave Ho13 := (Entails.of_eq (show oBlk d (cL L) (sL L) 13 (m (oLoc d)) = oPts d L 208#32 (k0_off1_inb L 13) (m (oLoc d)) from (pts_o (F := F) d L 13 _).symm)) $$ Ho13
  ihave He14 := (Entails.of_eq (show eBlk d (cL L) (sL L) 14 (m (eLoc d)) = ePts d L 224#32 (k0_off1_inb L 14) (m (eLoc d)) from (pts_e (F := F) d L 14 _).symm)) $$ He14
  ihave Ho14 := (Entails.of_eq (show oBlk d (cL L) (sL L) 14 (m (oLoc d)) = oPts d L 224#32 (k0_off1_inb L 14) (m (oLoc d)) from (pts_o (F := F) d L 14 _).symm)) $$ Ho14
  ihave He15 := (Entails.of_eq (show eBlk d (cL L) (sL L) 15 (m (eLoc d)) = ePts d L 240#32 (k0_off1_inb L 15) (m (eLoc d)) from (pts_e (F := F) d L 15 _).symm)) $$ He15
  ihave Ho15 := (Entails.of_eq (show oBlk d (cL L) (sL L) 15 (m (oLoc d)) = oPts d L 240#32 (k0_off1_inb L 15) (m (oLoc d)) from (pts_o (F := F) d L 15 _).symm)) $$ Ho15
  ihave Hb0 := (Entails.of_eq (show (((V d (cV L) (jV L) : Thread nD τ).loc cc0_scratch0 ↦{fullShare} g0 : sProp 𝕄)) = bPts0 d L g0 from rfl)) $$ Hb0
  ihave Hb1 := (Entails.of_eq (show (((V d (cV L) (jV L) : Thread nD τ).loc cc0_scratch1 ↦{fullShare} g1 : sProp 𝕄)) = bPts1 d L g1 from rfl)) $$ Hb1
  ihave Hb2 := (Entails.of_eq (show (((V d (cV L) (jV L) : Thread nD τ).loc cc0_scratch2 ↦{fullShare} g2 : sProp 𝕄)) = bPts2 d L g2 from rfl)) $$ Hb2
  ihave Hb3 := (Entails.of_eq (show (((V d (cV L) (jV L) : Thread nD τ).loc cc0_scratch3 ↦{fullShare} g3 : sProp 𝕄)) = bPts3 d L g3 from rfl)) $$ Hb3
  ihave Hb4 := (Entails.of_eq (show (((V d (cV L) (jV L) : Thread nD τ).loc cc0_scratch4 ↦{fullShare} g4 : sProp 𝕄)) = bPts4 d L g4 from rfl)) $$ Hb4
  ihave Hb5 := (Entails.of_eq (show (((V d (cV L) (jV L) : Thread nD τ).loc cc0_scratch5 ↦{fullShare} g5 : sProp 𝕄)) = bPts5 d L g5 from rfl)) $$ Hb5
  simp only [cc0__copy_body_eq_skeleton]; unfold cc0__copy_body_skel
  sl_exec_parts
  sl_step
  isplitl [He0 Ho0 He1 Ho1 He2 Ho2 He3 Ho3 He4 Ho4 He5 Ho5 He6 Ho6 He7 Ho7 He8 Ho8 He9 Ho9 He10 Ho10 He11 Ho11 He12 Ho12 He13 Ho13 He14 Ho14 He15 Ho15]
  · rw [tileRes_unroll]
    isplitl [He0 Ho0]
    · isplitl [He0]
      · iapply (Entails.of_eq (show ePts d L 0#32 (k0_off1_inb L 0) (m (eLoc d)) = eBlk d (cL L) (sL L) 0 (m (eLoc d)) from pts_e (F := F) d L 0 _)); iexact He0
      · iapply (Entails.of_eq (show oPts d L 0#32 (k0_off1_inb L 0) (eAsO m d) = oBlk d (cL L) (sL L) 0 (eAsO m d) from pts_o (F := F) d L 0 _))
        iapply (Entails.of_eq (written_block (F := F) d L 0#32 (k0_off1_inb L 0) (m (eLoc d)) (m (oLoc d)) _ ?_))
        all_goals try iexact Ho0
        intro x
        delta tile_body.sl.dma0_6 tile_body.sl.dma0
        simp only [Memref.view_whole, View.read_whole, View.write_whole_univ]
    isplitl [He1 Ho1]
    · isplitl [He1]
      · iapply (Entails.of_eq (show ePts d L 16#32 (k0_off1_inb L 1) (m (eLoc d)) = eBlk d (cL L) (sL L) 1 (m (eLoc d)) from pts_e (F := F) d L 1 _)); iexact He1
      · iapply (Entails.of_eq (show oPts d L 16#32 (k0_off1_inb L 1) (eAsO m d) = oBlk d (cL L) (sL L) 1 (eAsO m d) from pts_o (F := F) d L 1 _))
        iapply (Entails.of_eq (written_block (F := F) d L 16#32 (k0_off1_inb L 1) (m (eLoc d)) (m (oLoc d)) _ ?_))
        all_goals try iexact Ho1
        intro x
        delta tile_body.sl.dma0_8 tile_body.sl.dma0_1
        simp only [Memref.view_whole, View.read_whole, View.write_whole_univ]
    isplitl [He2 Ho2]
    · isplitl [He2]
      · iapply (Entails.of_eq (show ePts d L 32#32 (k0_off1_inb L 2) (m (eLoc d)) = eBlk d (cL L) (sL L) 2 (m (eLoc d)) from pts_e (F := F) d L 2 _)); iexact He2
      · iapply (Entails.of_eq (show oPts d L 32#32 (k0_off1_inb L 2) (eAsO m d) = oBlk d (cL L) (sL L) 2 (eAsO m d) from pts_o (F := F) d L 2 _))
        iapply (Entails.of_eq (written_block (F := F) d L 32#32 (k0_off1_inb L 2) (m (eLoc d)) (m (oLoc d)) _ ?_))
        all_goals try iexact Ho2
        intro x
        delta tile_body.sl.dma0_10 tile_body.sl.dma0_2
        simp only [Memref.view_whole, View.read_whole, View.write_whole_univ]
    isplitl [He3 Ho3]
    · isplitl [He3]
      · iapply (Entails.of_eq (show ePts d L 48#32 (k0_off1_inb L 3) (m (eLoc d)) = eBlk d (cL L) (sL L) 3 (m (eLoc d)) from pts_e (F := F) d L 3 _)); iexact He3
      · iapply (Entails.of_eq (show oPts d L 48#32 (k0_off1_inb L 3) (eAsO m d) = oBlk d (cL L) (sL L) 3 (eAsO m d) from pts_o (F := F) d L 3 _))
        iapply (Entails.of_eq (written_block (F := F) d L 48#32 (k0_off1_inb L 3) (m (eLoc d)) (m (oLoc d)) _ ?_))
        all_goals try iexact Ho3
        intro x
        delta tile_body.sl.dma0_12 tile_body.sl.dma0_3
        simp only [Memref.view_whole, View.read_whole, View.write_whole_univ]
    isplitl [He4 Ho4]
    · isplitl [He4]
      · iapply (Entails.of_eq (show ePts d L 64#32 (k0_off1_inb L 4) (m (eLoc d)) = eBlk d (cL L) (sL L) 4 (m (eLoc d)) from pts_e (F := F) d L 4 _)); iexact He4
      · iapply (Entails.of_eq (show oPts d L 64#32 (k0_off1_inb L 4) (eAsO m d) = oBlk d (cL L) (sL L) 4 (eAsO m d) from pts_o (F := F) d L 4 _))
        iapply (Entails.of_eq (written_block (F := F) d L 64#32 (k0_off1_inb L 4) (m (eLoc d)) (m (oLoc d)) _ ?_))
        all_goals try iexact Ho4
        intro x
        delta tile_body.sl.dma0_14 tile_body.sl.dma0_4
        simp only [Memref.view_whole, View.read_whole, View.write_whole_univ]
    isplitl [He5 Ho5]
    · isplitl [He5]
      · iapply (Entails.of_eq (show ePts d L 80#32 (k0_off1_inb L 5) (m (eLoc d)) = eBlk d (cL L) (sL L) 5 (m (eLoc d)) from pts_e (F := F) d L 5 _)); iexact He5
      · iapply (Entails.of_eq (show oPts d L 80#32 (k0_off1_inb L 5) (eAsO m d) = oBlk d (cL L) (sL L) 5 (eAsO m d) from pts_o (F := F) d L 5 _))
        iapply (Entails.of_eq (written_block (F := F) d L 80#32 (k0_off1_inb L 5) (m (eLoc d)) (m (oLoc d)) _ ?_))
        all_goals try iexact Ho5
        intro x
        delta tile_body.sl.dma0_16 tile_body.sl.dma0_5
        simp only [Memref.view_whole, View.read_whole, View.write_whole_univ]
    isplitl [He6 Ho6]
    · isplitl [He6]
      · iapply (Entails.of_eq (show ePts d L 96#32 (k0_off1_inb L 6) (m (eLoc d)) = eBlk d (cL L) (sL L) 6 (m (eLoc d)) from pts_e (F := F) d L 6 _)); iexact He6
      · iapply (Entails.of_eq (show oPts d L 96#32 (k0_off1_inb L 6) (eAsO m d) = oBlk d (cL L) (sL L) 6 (eAsO m d) from pts_o (F := F) d L 6 _))
        iapply (Entails.of_eq (written_block (F := F) d L 96#32 (k0_off1_inb L 6) (m (eLoc d)) (m (oLoc d)) _ ?_))
        all_goals try iexact Ho6
        intro x
        delta tile_body.sl.dma0_18 tile_body.sl.dma0_7 tile_body.sl.dma0
        simp only [Memref.view_whole, View.read_whole, View.write_whole_univ]
    isplitl [He7 Ho7]
    · isplitl [He7]
      · iapply (Entails.of_eq (show ePts d L 112#32 (k0_off1_inb L 7) (m (eLoc d)) = eBlk d (cL L) (sL L) 7 (m (eLoc d)) from pts_e (F := F) d L 7 _)); iexact He7
      · iapply (Entails.of_eq (show oPts d L 112#32 (k0_off1_inb L 7) (eAsO m d) = oBlk d (cL L) (sL L) 7 (eAsO m d) from pts_o (F := F) d L 7 _))
        iapply (Entails.of_eq (written_block (F := F) d L 112#32 (k0_off1_inb L 7) (m (eLoc d)) (m (oLoc d)) _ ?_))
        all_goals try iexact Ho7
        intro x
        delta tile_body.sl.dma0_20 tile_body.sl.dma0_9 tile_body.sl.dma0_1
        simp only [Memref.view_whole, View.read_whole, View.write_whole_univ]
    isplitl [He8 Ho8]
    · isplitl [He8]
      · iapply (Entails.of_eq (show ePts d L 128#32 (k0_off1_inb L 8) (m (eLoc d)) = eBlk d (cL L) (sL L) 8 (m (eLoc d)) from pts_e (F := F) d L 8 _)); iexact He8
      · iapply (Entails.of_eq (show oPts d L 128#32 (k0_off1_inb L 8) (eAsO m d) = oBlk d (cL L) (sL L) 8 (eAsO m d) from pts_o (F := F) d L 8 _))
        iapply (Entails.of_eq (written_block (F := F) d L 128#32 (k0_off1_inb L 8) (m (eLoc d)) (m (oLoc d)) _ ?_))
        all_goals try iexact Ho8
        intro x
        delta tile_body.sl.dma0_22 tile_body.sl.dma0_11 tile_body.sl.dma0_2
        simp only [Memref.view_whole, View.read_whole, View.write_whole_univ]
    isplitl [He9 Ho9]
    · isplitl [He9]
      · iapply (Entails.of_eq (show ePts d L 144#32 (k0_off1_inb L 9) (m (eLoc d)) = eBlk d (cL L) (sL L) 9 (m (eLoc d)) from pts_e (F := F) d L 9 _)); iexact He9
      · iapply (Entails.of_eq (show oPts d L 144#32 (k0_off1_inb L 9) (eAsO m d) = oBlk d (cL L) (sL L) 9 (eAsO m d) from pts_o (F := F) d L 9 _))
        iapply (Entails.of_eq (written_block (F := F) d L 144#32 (k0_off1_inb L 9) (m (eLoc d)) (m (oLoc d)) _ ?_))
        all_goals try iexact Ho9
        intro x
        delta tile_body.sl.dma0_24 tile_body.sl.dma0_13 tile_body.sl.dma0_3
        simp only [Memref.view_whole, View.read_whole, View.write_whole_univ]
    isplitl [He10 Ho10]
    · isplitl [He10]
      · iapply (Entails.of_eq (show ePts d L 160#32 (k0_off1_inb L 10) (m (eLoc d)) = eBlk d (cL L) (sL L) 10 (m (eLoc d)) from pts_e (F := F) d L 10 _)); iexact He10
      · iapply (Entails.of_eq (show oPts d L 160#32 (k0_off1_inb L 10) (eAsO m d) = oBlk d (cL L) (sL L) 10 (eAsO m d) from pts_o (F := F) d L 10 _))
        iapply (Entails.of_eq (written_block (F := F) d L 160#32 (k0_off1_inb L 10) (m (eLoc d)) (m (oLoc d)) _ ?_))
        all_goals try iexact Ho10
        intro x
        delta tile_body.sl.dma0_26 tile_body.sl.dma0_15 tile_body.sl.dma0_4
        simp only [Memref.view_whole, View.read_whole, View.write_whole_univ]
    isplitl [He11 Ho11]
    · isplitl [He11]
      · iapply (Entails.of_eq (show ePts d L 176#32 (k0_off1_inb L 11) (m (eLoc d)) = eBlk d (cL L) (sL L) 11 (m (eLoc d)) from pts_e (F := F) d L 11 _)); iexact He11
      · iapply (Entails.of_eq (show oPts d L 176#32 (k0_off1_inb L 11) (eAsO m d) = oBlk d (cL L) (sL L) 11 (eAsO m d) from pts_o (F := F) d L 11 _))
        iapply (Entails.of_eq (written_block (F := F) d L 176#32 (k0_off1_inb L 11) (m (eLoc d)) (m (oLoc d)) _ ?_))
        all_goals try iexact Ho11
        intro x
        delta tile_body.sl.dma0_27 tile_body.sl.dma0_17 tile_body.sl.dma0_5
        simp only [Memref.view_whole, View.read_whole, View.write_whole_univ]
    isplitl [He12 Ho12]
    · isplitl [He12]
      · iapply (Entails.of_eq (show ePts d L 192#32 (k0_off1_inb L 12) (m (eLoc d)) = eBlk d (cL L) (sL L) 12 (m (eLoc d)) from pts_e (F := F) d L 12 _)); iexact He12
      · iapply (Entails.of_eq (show oPts d L 192#32 (k0_off1_inb L 12) (eAsO m d) = oBlk d (cL L) (sL L) 12 (eAsO m d) from pts_o (F := F) d L 12 _))
        iapply (Entails.of_eq (written_block (F := F) d L 192#32 (k0_off1_inb L 12) (m (eLoc d)) (m (oLoc d)) _ ?_))
        all_goals try iexact Ho12
        intro x
        delta tile_body.sl.dma0_28 tile_body.sl.dma0_19 tile_body.sl.dma0_7 tile_body.sl.dma0
        simp only [Memref.view_whole, View.read_whole, View.write_whole_univ]
    isplitl [He13 Ho13]
    · isplitl [He13]
      · iapply (Entails.of_eq (show ePts d L 208#32 (k0_off1_inb L 13) (m (eLoc d)) = eBlk d (cL L) (sL L) 13 (m (eLoc d)) from pts_e (F := F) d L 13 _)); iexact He13
      · iapply (Entails.of_eq (show oPts d L 208#32 (k0_off1_inb L 13) (eAsO m d) = oBlk d (cL L) (sL L) 13 (eAsO m d) from pts_o (F := F) d L 13 _))
        iapply (Entails.of_eq (written_block (F := F) d L 208#32 (k0_off1_inb L 13) (m (eLoc d)) (m (oLoc d)) _ ?_))
        all_goals try iexact Ho13
        intro x
        delta tile_body.sl.dma0_29 tile_body.sl.dma0_21 tile_body.sl.dma0_9 tile_body.sl.dma0_1
        simp only [Memref.view_whole, View.read_whole, View.write_whole_univ]
    isplitl [He14 Ho14]
    · isplitl [He14]
      · iapply (Entails.of_eq (show ePts d L 224#32 (k0_off1_inb L 14) (m (eLoc d)) = eBlk d (cL L) (sL L) 14 (m (eLoc d)) from pts_e (F := F) d L 14 _)); iexact He14
      · iapply (Entails.of_eq (show oPts d L 224#32 (k0_off1_inb L 14) (eAsO m d) = oBlk d (cL L) (sL L) 14 (eAsO m d) from pts_o (F := F) d L 14 _))
        iapply (Entails.of_eq (written_block (F := F) d L 224#32 (k0_off1_inb L 14) (m (eLoc d)) (m (oLoc d)) _ ?_))
        all_goals try iexact Ho14
        intro x
        delta tile_body.sl.dma0_30 tile_body.sl.dma0_23 tile_body.sl.dma0_11 tile_body.sl.dma0_2
        simp only [Memref.view_whole, View.read_whole, View.write_whole_univ]
    · isplitl [He15]
      · iapply (Entails.of_eq (show ePts d L 240#32 (k0_off1_inb L 15) (m (eLoc d)) = eBlk d (cL L) (sL L) 15 (m (eLoc d)) from pts_e (F := F) d L 15 _)); iexact He15
      · iapply (Entails.of_eq (show oPts d L 240#32 (k0_off1_inb L 15) (eAsO m d) = oBlk d (cL L) (sL L) 15 (eAsO m d) from pts_o (F := F) d L 15 _))
        iapply (Entails.of_eq (written_block (F := F) d L 240#32 (k0_off1_inb L 15) (m (eLoc d)) (m (oLoc d)) _ ?_))
        all_goals try iexact Ho15
        intro x
        delta tile_body.sl.dma0_31 tile_body.sl.dma0_25 tile_body.sl.dma0_13 tile_body.sl.dma0_3
        simp only [Memref.view_whole, View.read_whole, View.write_whole_univ]
  isplitl [Hb0 Hb1 Hb2 Hb3 Hb4 Hb5 Hbufs]
  · isplitl [Hb0]
    · iexists _; iapply (Entails.of_eq (show bPts0 d L _ = (((V d (cV L) (jV L) : Thread nD τ).loc cc0_scratch0 ↦{fullShare} _ : sProp 𝕄)) from rfl)); iexact Hb0
    isplitl [Hb1]
    · iexists _; iapply (Entails.of_eq (show bPts1 d L _ = (((V d (cV L) (jV L) : Thread nD τ).loc cc0_scratch1 ↦{fullShare} _ : sProp 𝕄)) from rfl)); iexact Hb1
    isplitl [Hb2]
    · iexists _; iapply (Entails.of_eq (show bPts2 d L _ = (((V d (cV L) (jV L) : Thread nD τ).loc cc0_scratch2 ↦{fullShare} _ : sProp 𝕄)) from rfl)); iexact Hb2
    isplitl [Hb3]
    · iexists _; iapply (Entails.of_eq (show bPts3 d L _ = (((V d (cV L) (jV L) : Thread nD τ).loc cc0_scratch3 ↦{fullShare} _ : sProp 𝕄)) from rfl)); iexact Hb3
    isplitl [Hb4]
    · iexists _; iapply (Entails.of_eq (show bPts4 d L _ = (((V d (cV L) (jV L) : Thread nD τ).loc cc0_scratch4 ↦{fullShare} _ : sProp 𝕄)) from rfl)); iexact Hb4
    isplitl [Hb5]
    · iexists _; iapply (Entails.of_eq (show bPts5 d L _ = (((V d (cV L) (jV L) : Thread nD τ).loc cc0_scratch5 ↦{fullShare} _ : sProp 𝕄)) from rfl)); iexact Hb5
    iexact Hbufs
  isplitl [Hs6 Hs7 Hs8 Hs9 Hs10 Hs11 Hs12 Hs13 Hs14 Hs15 Hs16 Hs17]
  · isplitl [Hs6]
    · iexact Hs6
    isplitl [Hs7]
    · iexact Hs7
    isplitl [Hs8]
    · iexact Hs8
    isplitl [Hs9]
    · iexact Hs9
    isplitl [Hs10]
    · iexact Hs10
    isplitl [Hs11]
    · iexact Hs11
    isplitl [Hs12]
    · iexact Hs12
    isplitl [Hs13]
    · iexact Hs13
    isplitl [Hs14]
    · iexact Hs14
    isplitl [Hs15]
    · iexact Hs15
    isplitl [Hs16]
    · iexact Hs16
    iexact Hs17
  iexists _; isplitr
  pick_goal 2
  · iexact HO
  · ipureintro
    repeat (first | exact fun p hp => Or.inl hp | apply waits_insert)

end Tile

/-! ## The launch theorem's obligation for a subcore -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__copy_body (coordsV c s) eW (Memref.isWhole_whole _) oW (Memref.isWhole_whole _)
          bW0 (Memref.isWhole_whole _) bW1 (Memref.isWhole_whole _) bW2 (Memref.isWhole_whole _) bW3 (Memref.isWhole_whole _) bW4 (Memref.isWhole_whole _) bW5 (Memref.isWhole_whole _)
          cc0_scratch6 cc0_scratch7 cc0_scratch8 cc0_scratch9 cc0_scratch10 cc0_scratch11 cc0_scratch12 cc0_scratch13 cc0_scratch14 cc0_scratch15 cc0_scratch16 cc0_scratch17) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.CopyKernel

end
-- ==== Proof.CopyLaunchW.lean ====
/-
  The launch of the block copy. The program is one SparseCore call from @main: the TensorCore hands the two
  SparseCores the table and the result array, each SparseCore hands its sixteen vector subcores their shares, and
  the shares come back the same way. The 512 blocks of sixteen rows are pairwise disjoint and cover both arrays, so
  the whole table (read) and the whole result (written) are exactly the blocks over the two SparseCores, the
  sixteen subcores of each and the sixteen blocks of each subcore; a subcore's share is its own sixteen blocks of
  both arrays, and a SparseCore's share is its subcores' shares, nothing more. Coming back, every block of the result
  holds the table's rows, hence so does the whole result. The first argument is never handed to anyone. Given that
  each subcore's program turns its share of the result into the table's rows over the same blocks, every execution
  of the program ends with the result equal to the table as it was at the start and both arguments as they were.
-/
import proofs.«202649_g20452634264206_cont_8to1_1943_16_alg».proof.Proof.CopyBaseW

noncomputable section

namespace Cert.Proof.CopyKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the launch decides -/

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A SparseCore's share is its subcores' shares -/

omit [FloatOps F] in
/-- The call's subcores are the sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's SparseCores are the two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => tileRes m d (Fin.cast nCore_zero c) s (m (oLoc d))) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (eAsO m d))
          -∗ (bigSep Finset.univ fun s : Fin 16 => tileRes m d (Fin.cast nCore_zero c) s (eAsO m d))))
  rw [bigSep_tasks (F := F) (fun s => tileRes m d (Fin.cast nCore_zero c) s (m (oLoc d))),
    bigSep_tasks (F := F) (fun s => tileRes m d (Fin.cast nCore_zero c) s (eAsO m d))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays are their blocks -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- The table, whole, is its 512 blocks. -/
theorem ePts_blocks (d : Dev nD) (f : Buf (Elt F) (eLoc d)) :
    (eLoc d ↦{fullShare} f : sProp 𝕄) = bigSep Finset.univ fun t : T3 => eLoc d ↦[blkSet3 t]{fullShare} f := by
  rw [← pointsTo_biUnion Finset.univ (ℓ := eLoc d) blkSet3 blk_disjoint, blk_cover]; try rfl

omit [FloatOps F] in
/-- The result, whole, is its 512 blocks. -/
theorem oPts_blocks (d : Dev nD) (f : Buf (Elt F) (oLoc d)) :
    (oLoc d ↦{fullShare} f : sProp 𝕄) = bigSep Finset.univ fun t : T3 => oLoc d ↦[blkSet3 t]{fullShare} f := by
  rw [← pointsTo_biUnion Finset.univ (ℓ := oLoc d) blkSet3 blk_disjoint, blk_cover]; try rfl

omit [FloatOps F] in
/-- Over the blocks' index: SparseCore, then subcore, then the subcore's block. -/
theorem bigSep_T3 (Φ : T3 → sProp 𝕄) :
    bigSep Finset.univ Φ
      = bigSep Finset.univ fun c : Fin 2 => bigSep Finset.univ fun s : Fin 16 => bigSep Finset.univ fun r : Fin 16 => Φ (c, s, r) := by
  rw [BI.bigSep_univ_prod]
  exact bigSep_congr fun c _ => BI.bigSep_univ_prod _

omit [FloatOps F] in
/-- Both arrays whole are every subcore's blocks of both. -/
theorem blocks_eq (d : Dev nD) (f : Buf (Elt F) (eLoc d)) (g : Buf (Elt F) (oLoc d)) :
    (bigSep Finset.univ fun c : Fin 2 => bigSep Finset.univ fun s : Fin 16 => bigSep Finset.univ fun r : Fin 16 =>
        iprop(eBlk d c s r f ∗ oBlk d c s r g))
      = (iprop((eLoc d ↦{fullShare} f) ∗ (oLoc d ↦{fullShare} g)) : sProp 𝕄) := by
  rw [ePts_blocks d f, oPts_blocks d g, ← bigSep_sep', bigSep_T3]

theorem st0_eq (d : Dev nD) : (bigSep Finset.univ fun c : Fin ((K (F := F)).nCore 0) => (P m).st 0 d c)
    = iprop((eLoc d ↦{fullShare} m (eLoc d)) ∗ (oLoc d ↦{fullShare} m (oLoc d))) :=
  (bigSep_cores (F := F) fun c => bigSep Finset.univ fun s : Fin 16 => tileRes m d c s (m (oLoc d))).trans (blocks_eq d _ _)

theorem dn0_eq (d : Dev nD) : (bigSep Finset.univ fun c : Fin ((K (F := F)).nCore 0) => (P m).dn 0 d c)
    = iprop((eLoc d ↦{fullShare} m (eLoc d)) ∗ (oLoc d ↦{fullShare} eAsO m d)) :=
  (bigSep_cores (F := F) fun c => bigSep Finset.univ fun s : Fin 16 => tileRes m d c s (eAsO m d)).trans (blocks_eq d _ _)

/-! ## @main on the TensorCore -/

/-- What the TensorCore ends with: the first argument and the table as they were, the result holding the table's rows. -/
abbrev FIN (d : Dev nD) : sProp 𝕄 :=
  iprop((xLoc d ↦{fullShare} m (xLoc d)) ∗ (eLoc d ↦{fullShare} m (eLoc d)) ∗ (oLoc d ↦{fullShare} eAsO m d))

/-- @main on device `d`'s TensorCore: the one call, handed the table and the result as their blocks; back, the blocks
    joined again. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, He, Ho⟩, -, -⟩, -⟩
  iapply ((K (F := F)).wp_run (D (F := F)) 𝒱 (EH := EH) (P := P m) κ d 0) $$ [Hst Hx He Ho]
  isplitr; · iexact Hctx
  isplitl [Hst]; · iexact Hst
  isplitl [He Ho]
  · rw [st0_eq]
    isplitl [He]; · iexact He
    iexact Ho
  iintro ⟨Hst, Hdn⟩
  ihave Hdn' := (Entails.of_eq (dn0_eq m d)) $$ Hdn
  icases Hdn' with ⟨He, Ho⟩
  imodintro
  isplitl [Hst]; · iexact Hst
  isplitl [Hx]; · iexact Hx
  isplitl [He]; · iexact He
  iexact Ho

/-! ## The final memory -/

def fq (d : Dev nD) (s' : Phys nD τ sig (Elt F)) : Prop :=
  s'.mem.mem (oLoc d) = eAsO m d ∧ s'.mem.mem (xLoc d) = m (xLoc d) ∧ s'.mem.mem (eLoc d) = m (eLoc d)

theorem hfin (d : Dev nD) (s' : Phys nD τ sig (Elt F)) : iprop(FIN m d ∗ SI s') ⊢ (⌜fq m d s'⌝ : sProp 𝕄) := by
  iintro ⟨⟨Hx, He, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := oLoc d) (I := Finset.univ) (q := fullShare) (f := eAsO m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- On every device: the result is the table as it was at the start, and both arguments are as they were. -/
def QC : PUnit × MemSt nD τ sig (Elt F) → Prop := fun r => ∀ c : Dev nD,
  r.2.mem (oLoc c) = eAsO m c ∧ r.2.mem (xLoc c) = m (xLoc c) ∧ r.2.mem (eLoc c) = m (eLoc c)

/-- Given each subcore's task — from its sixteen blocks of both arrays to the same with the result's holding the
    table's rows —, every weakly fair execution of the program from `m` with zero counters terminates in `QC`. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.CopyKernel

end
-- ==== Proof.CopyBaseI.lean ====
/-
  The block copy's common ground. The program copies an 8192 × 1024 table into the result array, row block by row
  block: the 32 vector subcores (2 SparseCores × 16) each own 256 consecutive rows, subcore `s` of SparseCore `c` the
  rows from `512 s + 256 c`, and move them in sixteen blocks of sixteen rows through six staging buffers of their
  own tile memory — table block → staging buffer → result block, each transfer on a semaphore of its own slot.
  Here: the cut of the 8192 rows into 512 blocks of sixteen (block `32 s + 16 c + r` is the `r`-th of that subcore),
  that the blocks are pairwise disjoint and cover the array, what the launch's handshakes hand each SparseCore and
  each subcore (its blocks of the table, read, and of the result, written) and what comes back (the result's blocks
  holding the table's rows), and that the slice the subcore's program takes at offset `16 r` past its base row is
  that block.
-/
import proofs.«202649_g20452634264206_cont_8to1_1943_16_alg».proof.Defs
import Idealize.ShloMosaic.Lib.SparseCore.Launch
import Idealize.ShloMosaic.Lib.StableHlo.Run
import Idealize.ShloMosaic.Lib.Pipeline.Kit
import Idealize.ShloMosaic.Lib.Tactic
import proofs.«202649_g20452634264206_cont_8to1_1943_16_alg».proof.Proof.Gen.KernelIdeal
import proofs.«202649_g20452634264206_cont_8to1_1943_16_alg».proof.Proof.Gen.KernelIdeal.Skeleton

noncomputable section

namespace Cert.Proof.CopyKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

local notation "eW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S8192x1024 EltTy.f32)
local notation "bW0" => (Memref.whole Cert.KernelIdeal.cc0_scratch0 : Memref Cert.KernelIdeal.sig Kind.scVector Space.vmem Cert.KernelIdeal.S16x1024 EltTy.f32)
local notation "bW1" => (Memref.whole Cert.KernelIdeal.cc0_scratch1 : Memref Cert.KernelIdeal.sig Kind.scVector Space.vmem Cert.KernelIdeal.S16x1024 EltTy.f32)
local notation "bW2" => (Memref.whole Cert.KernelIdeal.cc0_scratch2 : Memref Cert.KernelIdeal.sig Kind.scVector Space.vmem Cert.KernelIdeal.S16x1024 EltTy.f32)
local notation "bW3" => (Memref.whole Cert.KernelIdeal.cc0_scratch3 : Memref Cert.KernelIdeal.sig Kind.scVector Space.vmem Cert.KernelIdeal.S16x1024 EltTy.f32)
local notation "bW4" => (Memref.whole Cert.KernelIdeal.cc0_scratch4 : Memref Cert.KernelIdeal.sig Kind.scVector Space.vmem Cert.KernelIdeal.S16x1024 EltTy.f32)
local notation "bW5" => (Memref.whole Cert.KernelIdeal.cc0_scratch5 : Memref Cert.KernelIdeal.sig Kind.scVector Space.vmem Cert.KernelIdeal.S16x1024 EltTy.f32)

abbrev xLoc (d : Dev nD) : Loc nD τ sig := (SparseCore.T d).loc main_arg0
abbrev eLoc (d : Dev nD) : Loc nD τ sig := (SparseCore.T d).loc main_arg1
abbrev oLoc (d : Dev nD) : Loc nD τ sig := (SparseCore.T d).loc main_v0

variable [FloatOps F]

abbrev cV (L : grid0.Coords) : Fin τ.nSC := (L 0).castLE hcore0
abbrev jV (L : grid0.Coords) : Fin τ.nSub := (L 1).castLE hsub0

/-- The sixteen-row block of the table at row offset `w` past the subcore's base row. -/
abbrev ckRect (L : grid0.Coords) (w : BitVec 32) (h : ∀ a, (k0_off1 L w) a + S16x1024.size a ≤ S8192x1024.size a) : Rect S8192x1024 :=
  Rect.unit (s := S8192x1024) (k0_off1 L w) S16x1024.size h

/-! ## The rows of the table, cut into 512 blocks of sixteen rows

Subcore `s` of SparseCore `c` moves the sixteen blocks `32 s + 16 c + r`, `r < 16`: its base row is
`512 s + 256 c` and block `r` of its share starts sixteen rows after block `r - 1`. -/

theorem hdiv : 512 ∣ S8192x1024.size 0 := ⟨16, rfl⟩

/-- The number of the block subcore `s` of SparseCore `c` moves `r`-th. -/
def jIdx (c : Fin 2) (s : Fin 16) (r : Fin 16) : Fin 512 := ⟨32 * s.val + 16 * c.val + r.val, by omega⟩

theorem jIdx_inj {c c' : Fin 2} {s s' : Fin 16} {r r' : Fin 16} (h : jIdx c s r = jIdx c' s' r') : c = c' ∧ s = s' ∧ r = r' := by
  have h' : 32 * s.val + 16 * c.val + r.val = 32 * s'.val + 16 * c'.val + r'.val := congrArg Fin.val h
  refine ⟨Fin.ext ?_, Fin.ext ?_, Fin.ext ?_⟩ <;> omega

theorem jIdx_surj (j : Fin 512) : ∃ c s r, jIdx c s r = j :=
  ⟨⟨(j.val % 32) / 16, by omega⟩, ⟨j.val / 32, by omega⟩, ⟨j.val % 16, by omega⟩, Fin.ext (by show 32 * (j.val / 32) + 16 * ((j.val % 32) / 16) + j.val % 16 = j.val; omega)⟩

/-- Block `j`: rows `16 j … 16 j + 15`, every column. -/
abbrev blk (j : Fin 512) : Rect S8192x1024 := Rect.part (s := S8192x1024) (a₀ := 0) hdiv j
abbrev blkSet (c : Fin 2) (s : Fin 16) (r : Fin 16) : Finset S8192x1024.Idx := (blk (jIdx c s r)).set

abbrev T3 : Type := Fin 2 × Fin 16 × Fin 16
abbrev blkSet3 (t : T3) : Finset S8192x1024.Idx := blkSet t.1 t.2.1 t.2.2

theorem blk_disjoint : ∀ t ∈ (Finset.univ : Finset T3), ∀ t' ∈ (Finset.univ : Finset T3), t ≠ t' → Disjoint (blkSet3 t) (blkSet3 t') := by
  intro t _ t' _ h
  refine Rect.part_disjoint hdiv fun e => h ?_
  obtain ⟨h1, h2, h3⟩ := jIdx_inj e
  exact Prod.ext h1 (Prod.ext h2 h3)

theorem blk_cover : (Finset.univ : Finset T3).biUnion blkSet3 = Finset.univ := by
  ext i
  simp only [Finset.mem_biUnion, Finset.mem_univ, true_and, iff_true]
  obtain ⟨j, hj⟩ := Rect.exists_mem_part hdiv i
  obtain ⟨c, s, r, rfl⟩ := jIdx_surj j
  exact ⟨(c, s, r), hj⟩

/-! ## What the handshakes carry

The call hands each SparseCore the blocks its subcores move, of the table (read) and of the result (written);
each subcore its sixteen; they come back with the result's blocks holding the table's. -/

abbrev eBlk (d : Dev nD) (c : Fin 2) (s : Fin 16) (r : Fin 16) (f : Buf (Elt F) (eLoc d)) : sProp 𝕄 := eLoc d ↦[blkSet c s r]{fullShare} f
abbrev oBlk (d : Dev nD) (c : Fin 2) (s : Fin 16) (r : Fin 16) (f : Buf (Elt F) (oLoc d)) : sProp 𝕄 := oLoc d ↦[blkSet c s r]{fullShare} f

/-- The table's launch contents, read as contents of the result array (one shape, one element type). -/
abbrev eAsO (d : Dev nD) : Buf (Elt F) (oLoc d) := m (eLoc d)

theorem nCore_zero : (K (F := F)).nCore 0 = 2 := rfl

/-- A subcore's sixteen blocks of both arrays, the result's at contents `g`. -/
abbrev tileRes (d : Dev nD) (c : Fin 2) (s : Fin 16) (g : Buf (Elt F) (oLoc d)) : sProp 𝕄 :=
  bigSep Finset.univ fun r : Fin 16 => iprop(eBlk d c s r (m (eLoc d)) ∗ oBlk d c s r g)

def P : (K (F := F)).Pay (nD := nD) (Val := Elt F) (Name := ℕ) (U := UU) where
  st := fun q d c => match q with | 0 => bigSep Finset.univ fun s : Fin 16 => tileRes m d (Fin.cast nCore_zero c) s (m (oLoc d))
  dn := fun q d c => match q with | 0 => bigSep Finset.univ fun s : Fin 16 => tileRes m d (Fin.cast nCore_zero c) s (eAsO m d)
  go := fun q d c i => match q with | 0 => tileRes m d (Fin.cast nCore_zero c) (Fin.cast nSub_zero i) (m (oLoc d))
  td := fun q d c i => match q with | 0 => tileRes m d (Fin.cast nCore_zero c) (Fin.cast nSub_zero i) (eAsO m d)
  x := fun _ _ => iprop(emp)

instance P_storable : (P (F := F) m).IsStorable where
  st q d c := match q with
    | 0 => (inferInstance : BI.Storable (upEmb : UEmb _ 𝕄) (bigSep Finset.univ fun s : Fin 16 => tileRes m d (Fin.cast nCore_zero c) s (m (oLoc d))))
  dn q d c := match q with
    | 0 => (inferInstance : BI.Storable (upEmb : UEmb _ 𝕄) (bigSep Finset.univ fun s : Fin 16 => tileRes m d (Fin.cast nCore_zero c) s (eAsO m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (eAsO m d)))

/-! ## A subcore's blocks as its slices address them -/

abbrev cL (L : grid0.Coords) : Fin 2 := L 0
abbrev sL (L : grid0.Coords) : Fin 16 := L 1

omit [FloatOps F] in
/-- The slice at offset `16 r` past the subcore's base row is block `32 s + 16 c + r`. -/
theorem ckRect_eq (L : grid0.Coords) (r : Fin 16) :
    ckRect L (BitVec.ofNat 32 (16 * r.val)) (k0_off1_inb L r) = blk (jIdx (cL L) (sL L) r) := by
  unfold ckRect blk Rect.part Rect.block
  congr 1 <;> funext a
  · rw [k0_off1_eq]
    match a with
    | 0 => simp [Shape.partIx, Shape.partSize, jIdx, cL, sL]; omega
    | 1 => simp [Shape.partIx, Shape.partSize]
  · match a with
    | 0 => simp [Shape.partSize]
    | 1 => simp [Shape.partSize]

end Cert.Proof.CopyKernelIdeal

end
-- ==== Proof.CopyTileI.lean ====
/-
  One vector subcore's task of the block copy, and the launch theorem's obligation for it. The subcore starts the loads
  of its first six blocks of the table into its six staging buffers; then, block by block, it waits for the block's
  load, starts the block's transfer from the staging buffer to the result array, and — from the second round on —
  before loading a staging buffer again waits for that buffer's last outgoing transfer; at the end it waits for the
  last six outgoing transfers. Every transfer has a semaphore of its own slot (six for loads, six for sends), and no
  buffer is touched between a transfer's start and its wait, so each block of the result ends holding exactly the
  table's block: read from the table whole into the staging buffer, written from it whole onto the block.
-/
import proofs.«202649_g20452634264206_cont_8to1_1943_16_alg».proof.Proof.CopyBaseI

noncomputable section

namespace Cert.Proof.CopyKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable (m : (ℓ : Loc nD τ sig) → Buf (Elt F) ℓ) (ρ : Dev nD → PrngReg)

local notation "eW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S8192x1024 EltTy.f32)
local notation "bW0" => (Memref.whole Cert.KernelIdeal.cc0_scratch0 : Memref Cert.KernelIdeal.sig Kind.scVector Space.vmem Cert.KernelIdeal.S16x1024 EltTy.f32)
local notation "bW1" => (Memref.whole Cert.KernelIdeal.cc0_scratch1 : Memref Cert.KernelIdeal.sig Kind.scVector Space.vmem Cert.KernelIdeal.S16x1024 EltTy.f32)
local notation "bW2" => (Memref.whole Cert.KernelIdeal.cc0_scratch2 : Memref Cert.KernelIdeal.sig Kind.scVector Space.vmem Cert.KernelIdeal.S16x1024 EltTy.f32)
local notation "bW3" => (Memref.whole Cert.KernelIdeal.cc0_scratch3 : Memref Cert.KernelIdeal.sig Kind.scVector Space.vmem Cert.KernelIdeal.S16x1024 EltTy.f32)
local notation "bW4" => (Memref.whole Cert.KernelIdeal.cc0_scratch4 : Memref Cert.KernelIdeal.sig Kind.scVector Space.vmem Cert.KernelIdeal.S16x1024 EltTy.f32)
local notation "bW5" => (Memref.whole Cert.KernelIdeal.cc0_scratch5 : Memref Cert.KernelIdeal.sig Kind.scVector Space.vmem Cert.KernelIdeal.S16x1024 EltTy.f32)

variable [FloatOps F]

section Own
variable (d : Dev nD) (c : Fin τ.nSC) (i : Fin τ.nSub)

omit [FloatOps F] in
/-- A vector subcore's scoped semaphore cells are its twelve DMA semaphores. -/
theorem ownCells_V : ownCells (sig := sig) (V d c i : Thread nD τ)
    = (Finset.univ : Finset (DmaSem sig)).map ⟨fun k => ((V d c i, SemLoc.dma k) : GSem nD τ sig), fun _ _ e => SemLoc.dma.inj (Prod.mk.inj e).2⟩ := by
  have hreg : ∀ s : Sem sig, ¬ (SemLoc.reg s : SemLoc sig).isScoped .scVector = true := by decide
  have hdma : ∀ k : DmaSem sig, (SemLoc.dma k : SemLoc sig).isScoped .scVector = true := by decide
  ext g
  rw [mem_ownCells, Finset.mem_map]
  constructor
  · rintro ⟨h1, h2⟩
    obtain ⟨t, sm⟩ := g
    obtain rfl : t = V d c i := h1
    cases sm with
    | reg s => exact absurd h2 (hreg s)
    | dma k => exact ⟨k, Finset.mem_univ _, rfl⟩
  · rintro ⟨k, -, rfl⟩
    exact ⟨rfl, hdma k⟩

omit [FloatOps F] in
theorem ownSems0_V :
    (ownSems0 (V d c i) : sProp 𝕄)
      = iprop(semVal ((V d c i, SemLoc.dma cc0_scratch6.sem) : GSem nD τ sig) 0
          ∗ semVal ((V d c i, SemLoc.dma cc0_scratch7.sem) : GSem nD τ sig) 0
          ∗ semVal ((V d c i, SemLoc.dma cc0_scratch8.sem) : GSem nD τ sig) 0
          ∗ semVal ((V d c i, SemLoc.dma cc0_scratch9.sem) : GSem nD τ sig) 0
          ∗ semVal ((V d c i, SemLoc.dma cc0_scratch10.sem) : GSem nD τ sig) 0
          ∗ semVal ((V d c i, SemLoc.dma cc0_scratch11.sem) : GSem nD τ sig) 0
          ∗ semVal ((V d c i, SemLoc.dma cc0_scratch12.sem) : GSem nD τ sig) 0
          ∗ semVal ((V d c i, SemLoc.dma cc0_scratch13.sem) : GSem nD τ sig) 0
          ∗ semVal ((V d c i, SemLoc.dma cc0_scratch14.sem) : GSem nD τ sig) 0
          ∗ semVal ((V d c i, SemLoc.dma cc0_scratch15.sem) : GSem nD τ sig) 0
          ∗ semVal ((V d c i, SemLoc.dma cc0_scratch16.sem) : GSem nD τ sig) 0
          ∗ semVal ((V d c i, SemLoc.dma cc0_scratch17.sem) : GSem nD τ sig) 0) := by
  unfold SparseCore.Cfg.ownSems0
  rw [ownCells_V, bigSep_map,
    bigSep_univ_eq_bigSepL [cc0_scratch6.sem, cc0_scratch7.sem, cc0_scratch8.sem, cc0_scratch9.sem, cc0_scratch10.sem, cc0_scratch11.sem, cc0_scratch12.sem, cc0_scratch13.sem, cc0_scratch14.sem, cc0_scratch15.sem, cc0_scratch16.sem, cc0_scratch17.sem] (by decide) (by decide)]
  rfl

end Own

section OwnBufs
variable (d : Dev nD) (c : Fin τ.nSC) (i : Fin τ.nSub)

omit [FloatOps F] in
/-- The six staging buffers are among the subcore's own: they are them, at some contents, and the rest. -/
theorem ownBufs_V :
    (ownBufs (V d c i) : sProp 𝕄)
      = iprop((∃ f, (V d c i : Thread nD τ).loc cc0_scratch0 ↦{fullShare} f)
          ∗ (∃ f, (V d c i : Thread nD τ).loc cc0_scratch1 ↦{fullShare} f)
          ∗ (∃ f, (V d c i : Thread nD τ).loc cc0_scratch2 ↦{fullShare} f)
          ∗ (∃ f, (V d c i : Thread nD τ).loc cc0_scratch3 ↦{fullShare} f)
          ∗ (∃ f, (V d c i : Thread nD τ).loc cc0_scratch4 ↦{fullShare} f)
          ∗ (∃ f, (V d c i : Thread nD τ).loc cc0_scratch5 ↦{fullShare} f)
          ∗ bigSep (((((((ownRefs (τ := τ) (.scVector c i)).erase ((Proc.scVector c i).devRef cc0_scratch0)).erase ((Proc.scVector c i).devRef cc0_scratch1)).erase ((Proc.scVector c i).devRef cc0_scratch2)).erase ((Proc.scVector c i).devRef cc0_scratch3)).erase ((Proc.scVector c i).devRef cc0_scratch4)).erase ((Proc.scVector c i).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := ((Proc.scVector c i).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector c i) (b := ((Proc.scVector c i).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector c i) (b := ((Proc.scVector c i).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector c i) (b := ((Proc.scVector c i).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector c i) (b := ((Proc.scVector c i).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector c i) (b := ((Proc.scVector c i).devRef cc0_scratch5)) rfl⟩⟩⟩⟩⟩)]

end OwnBufs

section Tile
variable (d : Dev nD) (L : grid0.Coords)

abbrev thr : Thread nD τ := V d (cV L) (jV L)

/-- The table's block at offset `w`, and the result's, as the subcore's slices address them. -/
abbrev ePts (w : BitVec 32) (h : ∀ a, (k0_off1 L w) a + S16x1024.size a ≤ S8192x1024.size a) (f : Buf (Elt F) (eLoc d)) : sProp 𝕄 :=
  ((eW).slice (ckRect L w h) (fun _ => rfl)).view.loc (thr d L) ↦[((eW).slice (ckRect L w h) (fun _ => rfl)).view.set]{fullShare} f
abbrev oPts (w : BitVec 32) (h : ∀ a, (k0_off1 L w) a + S16x1024.size a ≤ S8192x1024.size a) (f : Buf (Elt F) (oLoc d)) : sProp 𝕄 :=
  ((oW).slice (ckRect L w h) (fun _ => rfl)).view.loc (thr d L) ↦[((oW).slice (ckRect L w h) (fun _ => rfl)).view.set]{fullShare} f
abbrev bPts0 (g : Buf (Elt F) ((thr d L).loc cc0_scratch0)) : sProp 𝕄 := (bW0).view.loc (thr d L) ↦{fullShare} g
abbrev bPts1 (g : Buf (Elt F) ((thr d L).loc cc0_scratch1)) : sProp 𝕄 := (bW1).view.loc (thr d L) ↦{fullShare} g
abbrev bPts2 (g : Buf (Elt F) ((thr d L).loc cc0_scratch2)) : sProp 𝕄 := (bW2).view.loc (thr d L) ↦{fullShare} g
abbrev bPts3 (g : Buf (Elt F) ((thr d L).loc cc0_scratch3)) : sProp 𝕄 := (bW3).view.loc (thr d L) ↦{fullShare} g
abbrev bPts4 (g : Buf (Elt F) ((thr d L).loc cc0_scratch4)) : sProp 𝕄 := (bW4).view.loc (thr d L) ↦{fullShare} g
abbrev bPts5 (g : Buf (Elt F) ((thr d L).loc cc0_scratch5)) : sProp 𝕄 := (bW5).view.loc (thr d L) ↦{fullShare} g
abbrev sem0 (s : DmaSem sig) : sProp 𝕄 := semVal (thr d L, SemLoc.dma s) 0

omit [FloatOps F] in
theorem set_eCk (r : Fin 16) :
    ((eW).slice (ckRect L (BitVec.ofNat 32 (16 * r.val)) (k0_off1_inb L r)) (fun _ => rfl)).view.set = blkSet (cL L) (sL L) r := by
  show ((View.whole (main_arg1_scv : Ref sig .scVector)).slice _).set = _
  rw [View.set_slice_whole, ckRect_eq]
omit [FloatOps F] in
theorem set_oCk (r : Fin 16) :
    ((oW).slice (ckRect L (BitVec.ofNat 32 (16 * r.val)) (k0_off1_inb L r)) (fun _ => rfl)).view.set = blkSet (cL L) (sL L) r := by
  show ((View.whole (main_v0_scv : Ref sig .scVector)).slice _).set = _
  rw [View.set_slice_whole, ckRect_eq]

omit [FloatOps F] in
/-- A block held as the launch hands it is the block held as the subcore's slice addresses it. -/
theorem pts_e (r : Fin 16) (f : Buf (Elt F) (eLoc d)) :
    ePts d L (BitVec.ofNat 32 (16 * r.val)) (k0_off1_inb L r) f = eBlk d (cL L) (sL L) r f := by
  unfold ePts; rw [set_eCk]
omit [FloatOps F] in
theorem pts_o (r : Fin 16) (f : Buf (Elt F) (oLoc d)) :
    oPts d L (BitVec.ofNat 32 (16 * r.val)) (k0_off1_inb L r) f = oBlk d (cL L) (sL L) r f := by
  unfold oPts; rw [set_oCk]

omit [FloatOps F] in
/-- Reading back a view written whole gives what was written. -/
theorem read_written_whole {κ : Kind} {sp : Space} {s : Shape} {e : EltTy} (v : View sig κ sp s e) (f : v.ty.Contents (Elt F))
    (p : s.Idx → Elt F e) (x : s.Idx) : v.read (Elt F) (v.writes (Elt F) f [⟨Rect.whole s, p⟩]) x = p x := by
  have h := View.read_writes_cons_emb v f (Rect.whole s) p [] x
  rwa [Rect.emb_whole_apply] at h

omit [FloatOps F] in
/-- A result block overwritten whole by the table's block holds, on that block, the table's contents. -/
theorem written_block (w : BitVec 32) (h : ∀ a, (k0_off1 L w) a + S16x1024.size a ≤ S8192x1024.size a)
    (fe : Buf (Elt F) (eLoc d)) (fo : Buf (Elt F) (oLoc d)) (p : S16x1024.Idx → Elt F .f32)
    (hp : ∀ x, p x = View.read (Elt F) ((eW).slice (ckRect L w h) (fun _ => rfl)).view fe x) :
    oPts d L w h (((oW).slice (ckRect L w h) (fun _ => rfl)).view.writes (Elt F) fo [⟨Rect.whole (ckRect L w h).shape, p⟩])
      = oPts d L w h (fe : Buf (Elt F) (oLoc d)) := by
  refine pointsTo_congr fun i hi => ?_
  obtain ⟨x, -, rfl⟩ := Finset.mem_map.mp hi
  have h1 := read_written_whole (F := F) ((oW).slice (ckRect L w h) (fun _ => rfl)).view fo p x
  rw [View.read_apply, hp x, View.read_apply] at h1
  exact (cast_eq _ _).symm.trans (h1.trans (cast_eq _ _))

omit [FloatOps F] in
/-- A subcore's sixteen blocks, one by one. -/
theorem tileRes_unroll (c : Fin 2) (s : Fin 16) (g : Buf (Elt F) (oLoc d)) :
    tileRes m d c s g = iprop((eBlk d c s 0 (m (eLoc d)) ∗ oBlk d c s 0 g)
      ∗ (eBlk d c s 1 (m (eLoc d)) ∗ oBlk d c s 1 g)
      ∗ (eBlk d c s 2 (m (eLoc d)) ∗ oBlk d c s 2 g)
      ∗ (eBlk d c s 3 (m (eLoc d)) ∗ oBlk d c s 3 g)
      ∗ (eBlk d c s 4 (m (eLoc d)) ∗ oBlk d c s 4 g)
      ∗ (eBlk d c s 5 (m (eLoc d)) ∗ oBlk d c s 5 g)
      ∗ (eBlk d c s 6 (m (eLoc d)) ∗ oBlk d c s 6 g)
      ∗ (eBlk d c s 7 (m (eLoc d)) ∗ oBlk d c s 7 g)
      ∗ (eBlk d c s 8 (m (eLoc d)) ∗ oBlk d c s 8 g)
      ∗ (eBlk d c s 9 (m (eLoc d)) ∗ oBlk d c s 9 g)
      ∗ (eBlk d c s 10 (m (eLoc d)) ∗ oBlk d c s 10 g)
      ∗ (eBlk d c s 11 (m (eLoc d)) ∗ oBlk d c s 11 g)
      ∗ (eBlk d c s 12 (m (eLoc d)) ∗ oBlk d c s 12 g)
      ∗ (eBlk d c s 13 (m (eLoc d)) ∗ oBlk d c s 13 g)
      ∗ (eBlk d c s 14 (m (eLoc d)) ∗ oBlk d c s 14 g)
      ∗ (eBlk d c s 15 (m (eLoc d)) ∗ oBlk d c s 15 g)) := by
  unfold tileRes
  rw [bigSep_univ_eq_bigSepL [0, 1, 2, 3, 4, 5, 6, 7, 8, 9, 10, 11, 12, 13, 14, 15] (by decide) (by decide)]
  rfl

omit [FloatOps F] in
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-- One subcore's task: six loads ahead, then block by block — wait for the block's load, send it to the result, and
    before a staging buffer is loaded again wait for its last send — and the last six sends awaited. Each result block
    ends holding the table's block. -/
theorem tile_body (hF : (K (F := F)).Facts) (O : CellTallies nD τ sig (HIx 1)) (W : Waits sig (HIx 1)) (hO : ∀ g, O g none = 0) :
    iprop(levAts (K (F := F)).L (K (F := F)).lev ∗ emp ∗ tileRes m d (cL L) (sL L) (m (oLoc d))
        ∗ scopedBufs (thr d L) ∗ scopedSems0 (thr d L) ∗ owes (thr d L) O W)
      ⊢ wp frame (wpE (defs₀ (F := F)) 𝒱₀ (thr d L) none) Set.univ
          (cc0__copy_body L eW (Memref.isWhole_whole _) oW (Memref.isWhole_whole _)
            bW0 (Memref.isWhole_whole _) bW1 (Memref.isWhole_whole _) bW2 (Memref.isWhole_whole _) bW3 (Memref.isWhole_whole _) bW4 (Memref.isWhole_whole _) bW5 (Memref.isWhole_whole _)
            cc0_scratch6 cc0_scratch7 cc0_scratch8 cc0_scratch9 cc0_scratch10 cc0_scratch11 cc0_scratch12 cc0_scratch13 cc0_scratch14 cc0_scratch15 cc0_scratch16 cc0_scratch17)
          fun _ => iprop(tileRes m d (cL L) (sL L) (eAsO m d) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V,
    tileRes_unroll m d (cL L) (sL L) (m (oLoc d))]
  iintro ⟨#Hlv, -, ⟨⟨He0, Ho0⟩, ⟨He1, Ho1⟩, ⟨He2, Ho2⟩, ⟨He3, Ho3⟩, ⟨He4, Ho4⟩, ⟨He5, Ho5⟩, ⟨He6, Ho6⟩, ⟨He7, Ho7⟩, ⟨He8, Ho8⟩, ⟨He9, Ho9⟩, ⟨He10, Ho10⟩, ⟨He11, Ho11⟩, ⟨He12, Ho12⟩, ⟨He13, Ho13⟩, ⟨He14, Ho14⟩, ⟨He15, Ho15⟩⟩,
    ⟨⟨%g0, Hb0⟩, ⟨%g1, Hb1⟩, ⟨%g2, Hb2⟩, ⟨%g3, Hb3⟩, ⟨%g4, Hb4⟩, ⟨%g5, Hb5⟩, Hbufs⟩, ⟨Hs6, Hs7, Hs8, Hs9, Hs10, Hs11, Hs12, Hs13, Hs14, Hs15, Hs16, Hs17⟩, HO⟩
  ihave Hmw := ((K (F := F)).mayWaits_none (thr := thr d L) hO) $$ Hlv
  ihave He0 := (Entails.of_eq (show eBlk d (cL L) (sL L) 0 (m (eLoc d)) = ePts d L 0#32 (k0_off1_inb L 0) (m (eLoc d)) from (pts_e (F := F) d L 0 _).symm)) $$ He0
  ihave Ho0 := (Entails.of_eq (show oBlk d (cL L) (sL L) 0 (m (oLoc d)) = oPts d L 0#32 (k0_off1_inb L 0) (m (oLoc d)) from (pts_o (F := F) d L 0 _).symm)) $$ Ho0
  ihave He1 := (Entails.of_eq (show eBlk d (cL L) (sL L) 1 (m (eLoc d)) = ePts d L 16#32 (k0_off1_inb L 1) (m (eLoc d)) from (pts_e (F := F) d L 1 _).symm)) $$ He1
  ihave Ho1 := (Entails.of_eq (show oBlk d (cL L) (sL L) 1 (m (oLoc d)) = oPts d L 16#32 (k0_off1_inb L 1) (m (oLoc d)) from (pts_o (F := F) d L 1 _).symm)) $$ Ho1
  ihave He2 := (Entails.of_eq (show eBlk d (cL L) (sL L) 2 (m (eLoc d)) = ePts d L 32#32 (k0_off1_inb L 2) (m (eLoc d)) from (pts_e (F := F) d L 2 _).symm)) $$ He2
  ihave Ho2 := (Entails.of_eq (show oBlk d (cL L) (sL L) 2 (m (oLoc d)) = oPts d L 32#32 (k0_off1_inb L 2) (m (oLoc d)) from (pts_o (F := F) d L 2 _).symm)) $$ Ho2
  ihave He3 := (Entails.of_eq (show eBlk d (cL L) (sL L) 3 (m (eLoc d)) = ePts d L 48#32 (k0_off1_inb L 3) (m (eLoc d)) from (pts_e (F := F) d L 3 _).symm)) $$ He3
  ihave Ho3 := (Entails.of_eq (show oBlk d (cL L) (sL L) 3 (m (oLoc d)) = oPts d L 48#32 (k0_off1_inb L 3) (m (oLoc d)) from (pts_o (F := F) d L 3 _).symm)) $$ Ho3
  ihave He4 := (Entails.of_eq (show eBlk d (cL L) (sL L) 4 (m (eLoc d)) = ePts d L 64#32 (k0_off1_inb L 4) (m (eLoc d)) from (pts_e (F := F) d L 4 _).symm)) $$ He4
  ihave Ho4 := (Entails.of_eq (show oBlk d (cL L) (sL L) 4 (m (oLoc d)) = oPts d L 64#32 (k0_off1_inb L 4) (m (oLoc d)) from (pts_o (F := F) d L 4 _).symm)) $$ Ho4
  ihave He5 := (Entails.of_eq (show eBlk d (cL L) (sL L) 5 (m (eLoc d)) = ePts d L 80#32 (k0_off1_inb L 5) (m (eLoc d)) from (pts_e (F := F) d L 5 _).symm)) $$ He5
  ihave Ho5 := (Entails.of_eq (show oBlk d (cL L) (sL L) 5 (m (oLoc d)) = oPts d L 80#32 (k0_off1_inb L 5) (m (oLoc d)) from (pts_o (F := F) d L 5 _).symm)) $$ Ho5
  ihave He6 := (Entails.of_eq (show eBlk d (cL L) (sL L) 6 (m (eLoc d)) = ePts d L 96#32 (k0_off1_inb L 6) (m (eLoc d)) from (pts_e (F := F) d L 6 _).symm)) $$ He6
  ihave Ho6 := (Entails.of_eq (show oBlk d (cL L) (sL L) 6 (m (oLoc d)) = oPts d L 96#32 (k0_off1_inb L 6) (m (oLoc d)) from (pts_o (F := F) d L 6 _).symm)) $$ Ho6
  ihave He7 := (Entails.of_eq (show eBlk d (cL L) (sL L) 7 (m (eLoc d)) = ePts d L 112#32 (k0_off1_inb L 7) (m (eLoc d)) from (pts_e (F := F) d L 7 _).symm)) $$ He7
  ihave Ho7 := (Entails.of_eq (show oBlk d (cL L) (sL L) 7 (m (oLoc d)) = oPts d L 112#32 (k0_off1_inb L 7) (m (oLoc d)) from (pts_o (F := F) d L 7 _).symm)) $$ Ho7
  ihave He8 := (Entails.of_eq (show eBlk d (cL L) (sL L) 8 (m (eLoc d)) = ePts d L 128#32 (k0_off1_inb L 8) (m (eLoc d)) from (pts_e (F := F) d L 8 _).symm)) $$ He8
  ihave Ho8 := (Entails.of_eq (show oBlk d (cL L) (sL L) 8 (m (oLoc d)) = oPts d L 128#32 (k0_off1_inb L 8) (m (oLoc d)) from (pts_o (F := F) d L 8 _).symm)) $$ Ho8
  ihave He9 := (Entails.of_eq (show eBlk d (cL L) (sL L) 9 (m (eLoc d)) = ePts d L 144#32 (k0_off1_inb L 9) (m (eLoc d)) from (pts_e (F := F) d L 9 _).symm)) $$ He9
  ihave Ho9 := (Entails.of_eq (show oBlk d (cL L) (sL L) 9 (m (oLoc d)) = oPts d L 144#32 (k0_off1_inb L 9) (m (oLoc d)) from (pts_o (F := F) d L 9 _).symm)) $$ Ho9
  ihave He10 := (Entails.of_eq (show eBlk d (cL L) (sL L) 10 (m (eLoc d)) = ePts d L 160#32 (k0_off1_inb L 10) (m (eLoc d)) from (pts_e (F := F) d L 10 _).symm)) $$ He10
  ihave Ho10 := (Entails.of_eq (show oBlk d (cL L) (sL L) 10 (m (oLoc d)) = oPts d L 160#32 (k0_off1_inb L 10) (m (oLoc d)) from (pts_o (F := F) d L 10 _).symm)) $$ Ho10
  ihave He11 := (Entails.of_eq (show eBlk d (cL L) (sL L) 11 (m (eLoc d)) = ePts d L 176#32 (k0_off1_inb L 11) (m (eLoc d)) from (pts_e (F := F) d L 11 _).symm)) $$ He11
  ihave Ho11 := (Entails.of_eq (show oBlk d (cL L) (sL L) 11 (m (oLoc d)) = oPts d L 176#32 (k0_off1_inb L 11) (m (oLoc d)) from (pts_o (F := F) d L 11 _).symm)) $$ Ho11
  ihave He12 := (Entails.of_eq (show eBlk d (cL L) (sL L) 12 (m (eLoc d)) = ePts d L 192#32 (k0_off1_inb L 12) (m (eLoc d)) from (pts_e (F := F) d L 12 _).symm)) $$ He12
  ihave Ho12 := (Entails.of_eq (show oBlk d (cL L) (sL L) 12 (m (oLoc d)) = oPts d L 192#32 (k0_off1_inb L 12) (m (oLoc d)) from (pts_o (F := F) d L 12 _).symm)) $$ Ho12
  ihave He13 := (Entails.of_eq (show eBlk d (cL L) (sL L) 13 (m (eLoc d)) = ePts d L 208#32 (k0_off1_inb L 13) (m (eLoc d)) from (pts_e (F := F) d L 13 _).symm)) $$ He13
  ihave Ho13 := (Entails.of_eq (show oBlk d (cL L) (sL L) 13 (m (oLoc d)) = oPts d L 208#32 (k0_off1_inb L 13) (m (oLoc d)) from (pts_o (F := F) d L 13 _).symm)) $$ Ho13
  ihave He14 := (Entails.of_eq (show eBlk d (cL L) (sL L) 14 (m (eLoc d)) = ePts d L 224#32 (k0_off1_inb L 14) (m (eLoc d)) from (pts_e (F := F) d L 14 _).symm)) $$ He14
  ihave Ho14 := (Entails.of_eq (show oBlk d (cL L) (sL L) 14 (m (oLoc d)) = oPts d L 224#32 (k0_off1_inb L 14) (m (oLoc d)) from (pts_o (F := F) d L 14 _).symm)) $$ Ho14
  ihave He15 := (Entails.of_eq (show eBlk d (cL L) (sL L) 15 (m (eLoc d)) = ePts d L 240#32 (k0_off1_inb L 15) (m (eLoc d)) from (pts_e (F := F) d L 15 _).symm)) $$ He15
  ihave Ho15 := (Entails.of_eq (show oBlk d (cL L) (sL L) 15 (m (oLoc d)) = oPts d L 240#32 (k0_off1_inb L 15) (m (oLoc d)) from (pts_o (F := F) d L 15 _).symm)) $$ Ho15
  ihave Hb0 := (Entails.of_eq (show (((V d (cV L) (jV L) : Thread nD τ).loc cc0_scratch0 ↦{fullShare} g0 : sProp 𝕄)) = bPts0 d L g0 from rfl)) $$ Hb0
  ihave Hb1 := (Entails.of_eq (show (((V d (cV L) (jV L) : Thread nD τ).loc cc0_scratch1 ↦{fullShare} g1 : sProp 𝕄)) = bPts1 d L g1 from rfl)) $$ Hb1
  ihave Hb2 := (Entails.of_eq (show (((V d (cV L) (jV L) : Thread nD τ).loc cc0_scratch2 ↦{fullShare} g2 : sProp 𝕄)) = bPts2 d L g2 from rfl)) $$ Hb2
  ihave Hb3 := (Entails.of_eq (show (((V d (cV L) (jV L) : Thread nD τ).loc cc0_scratch3 ↦{fullShare} g3 : sProp 𝕄)) = bPts3 d L g3 from rfl)) $$ Hb3
  ihave Hb4 := (Entails.of_eq (show (((V d (cV L) (jV L) : Thread nD τ).loc cc0_scratch4 ↦{fullShare} g4 : sProp 𝕄)) = bPts4 d L g4 from rfl)) $$ Hb4
  ihave Hb5 := (Entails.of_eq (show (((V d (cV L) (jV L) : Thread nD τ).loc cc0_scratch5 ↦{fullShare} g5 : sProp 𝕄)) = bPts5 d L g5 from rfl)) $$ Hb5
  simp only [cc0__copy_body_eq_skeleton]; unfold cc0__copy_body_skel
  sl_exec_parts
  sl_step
  isplitl [He0 Ho0 He1 Ho1 He2 Ho2 He3 Ho3 He4 Ho4 He5 Ho5 He6 Ho6 He7 Ho7 He8 Ho8 He9 Ho9 He10 Ho10 He11 Ho11 He12 Ho12 He13 Ho13 He14 Ho14 He15 Ho15]
  · rw [tileRes_unroll]
    isplitl [He0 Ho0]
    · isplitl [He0]
      · iapply (Entails.of_eq (show ePts d L 0#32 (k0_off1_inb L 0) (m (eLoc d)) = eBlk d (cL L) (sL L) 0 (m (eLoc d)) from pts_e (F := F) d L 0 _)); iexact He0
      · iapply (Entails.of_eq (show oPts d L 0#32 (k0_off1_inb L 0) (eAsO m d) = oBlk d (cL L) (sL L) 0 (eAsO m d) from pts_o (F := F) d L 0 _))
        iapply (Entails.of_eq (written_block (F := F) d L 0#32 (k0_off1_inb L 0) (m (eLoc d)) (m (oLoc d)) _ ?_))
        all_goals try iexact Ho0
        intro x
        delta tile_body.sl.dma0_6 tile_body.sl.dma0
        simp only [Memref.view_whole, View.read_whole, View.write_whole_univ]
    isplitl [He1 Ho1]
    · isplitl [He1]
      · iapply (Entails.of_eq (show ePts d L 16#32 (k0_off1_inb L 1) (m (eLoc d)) = eBlk d (cL L) (sL L) 1 (m (eLoc d)) from pts_e (F := F) d L 1 _)); iexact He1
      · iapply (Entails.of_eq (show oPts d L 16#32 (k0_off1_inb L 1) (eAsO m d) = oBlk d (cL L) (sL L) 1 (eAsO m d) from pts_o (F := F) d L 1 _))
        iapply (Entails.of_eq (written_block (F := F) d L 16#32 (k0_off1_inb L 1) (m (eLoc d)) (m (oLoc d)) _ ?_))
        all_goals try iexact Ho1
        intro x
        delta tile_body.sl.dma0_8 tile_body.sl.dma0_1
        simp only [Memref.view_whole, View.read_whole, View.write_whole_univ]
    isplitl [He2 Ho2]
    · isplitl [He2]
      · iapply (Entails.of_eq (show ePts d L 32#32 (k0_off1_inb L 2) (m (eLoc d)) = eBlk d (cL L) (sL L) 2 (m (eLoc d)) from pts_e (F := F) d L 2 _)); iexact He2
      · iapply (Entails.of_eq (show oPts d L 32#32 (k0_off1_inb L 2) (eAsO m d) = oBlk d (cL L) (sL L) 2 (eAsO m d) from pts_o (F := F) d L 2 _))
        iapply (Entails.of_eq (written_block (F := F) d L 32#32 (k0_off1_inb L 2) (m (eLoc d)) (m (oLoc d)) _ ?_))
        all_goals try iexact Ho2
        intro x
        delta tile_body.sl.dma0_10 tile_body.sl.dma0_2
        simp only [Memref.view_whole, View.read_whole, View.write_whole_univ]
    isplitl [He3 Ho3]
    · isplitl [He3]
      · iapply (Entails.of_eq (show ePts d L 48#32 (k0_off1_inb L 3) (m (eLoc d)) = eBlk d (cL L) (sL L) 3 (m (eLoc d)) from pts_e (F := F) d L 3 _)); iexact He3
      · iapply (Entails.of_eq (show oPts d L 48#32 (k0_off1_inb L 3) (eAsO m d) = oBlk d (cL L) (sL L) 3 (eAsO m d) from pts_o (F := F) d L 3 _))
        iapply (Entails.of_eq (written_block (F := F) d L 48#32 (k0_off1_inb L 3) (m (eLoc d)) (m (oLoc d)) _ ?_))
        all_goals try iexact Ho3
        intro x
        delta tile_body.sl.dma0_12 tile_body.sl.dma0_3
        simp only [Memref.view_whole, View.read_whole, View.write_whole_univ]
    isplitl [He4 Ho4]
    · isplitl [He4]
      · iapply (Entails.of_eq (show ePts d L 64#32 (k0_off1_inb L 4) (m (eLoc d)) = eBlk d (cL L) (sL L) 4 (m (eLoc d)) from pts_e (F := F) d L 4 _)); iexact He4
      · iapply (Entails.of_eq (show oPts d L 64#32 (k0_off1_inb L 4) (eAsO m d) = oBlk d (cL L) (sL L) 4 (eAsO m d) from pts_o (F := F) d L 4 _))
        iapply (Entails.of_eq (written_block (F := F) d L 64#32 (k0_off1_inb L 4) (m (eLoc d)) (m (oLoc d)) _ ?_))
        all_goals try iexact Ho4
        intro x
        delta tile_body.sl.dma0_14 tile_body.sl.dma0_4
        simp only [Memref.view_whole, View.read_whole, View.write_whole_univ]
    isplitl [He5 Ho5]
    · isplitl [He5]
      · iapply (Entails.of_eq (show ePts d L 80#32 (k0_off1_inb L 5) (m (eLoc d)) = eBlk d (cL L) (sL L) 5 (m (eLoc d)) from pts_e (F := F) d L 5 _)); iexact He5
      · iapply (Entails.of_eq (show oPts d L 80#32 (k0_off1_inb L 5) (eAsO m d) = oBlk d (cL L) (sL L) 5 (eAsO m d) from pts_o (F := F) d L 5 _))
        iapply (Entails.of_eq (written_block (F := F) d L 80#32 (k0_off1_inb L 5) (m (eLoc d)) (m (oLoc d)) _ ?_))
        all_goals try iexact Ho5
        intro x
        delta tile_body.sl.dma0_16 tile_body.sl.dma0_5
        simp only [Memref.view_whole, View.read_whole, View.write_whole_univ]
    isplitl [He6 Ho6]
    · isplitl [He6]
      · iapply (Entails.of_eq (show ePts d L 96#32 (k0_off1_inb L 6) (m (eLoc d)) = eBlk d (cL L) (sL L) 6 (m (eLoc d)) from pts_e (F := F) d L 6 _)); iexact He6
      · iapply (Entails.of_eq (show oPts d L 96#32 (k0_off1_inb L 6) (eAsO m d) = oBlk d (cL L) (sL L) 6 (eAsO m d) from pts_o (F := F) d L 6 _))
        iapply (Entails.of_eq (written_block (F := F) d L 96#32 (k0_off1_inb L 6) (m (eLoc d)) (m (oLoc d)) _ ?_))
        all_goals try iexact Ho6
        intro x
        delta tile_body.sl.dma0_18 tile_body.sl.dma0_7 tile_body.sl.dma0
        simp only [Memref.view_whole, View.read_whole, View.write_whole_univ]
    isplitl [He7 Ho7]
    · isplitl [He7]
      · iapply (Entails.of_eq (show ePts d L 112#32 (k0_off1_inb L 7) (m (eLoc d)) = eBlk d (cL L) (sL L) 7 (m (eLoc d)) from pts_e (F := F) d L 7 _)); iexact He7
      · iapply (Entails.of_eq (show oPts d L 112#32 (k0_off1_inb L 7) (eAsO m d) = oBlk d (cL L) (sL L) 7 (eAsO m d) from pts_o (F := F) d L 7 _))
        iapply (Entails.of_eq (written_block (F := F) d L 112#32 (k0_off1_inb L 7) (m (eLoc d)) (m (oLoc d)) _ ?_))
        all_goals try iexact Ho7
        intro x
        delta tile_body.sl.dma0_20 tile_body.sl.dma0_9 tile_body.sl.dma0_1
        simp only [Memref.view_whole, View.read_whole, View.write_whole_univ]
    isplitl [He8 Ho8]
    · isplitl [He8]
      · iapply (Entails.of_eq (show ePts d L 128#32 (k0_off1_inb L 8) (m (eLoc d)) = eBlk d (cL L) (sL L) 8 (m (eLoc d)) from pts_e (F := F) d L 8 _)); iexact He8
      · iapply (Entails.of_eq (show oPts d L 128#32 (k0_off1_inb L 8) (eAsO m d) = oBlk d (cL L) (sL L) 8 (eAsO m d) from pts_o (F := F) d L 8 _))
        iapply (Entails.of_eq (written_block (F := F) d L 128#32 (k0_off1_inb L 8) (m (eLoc d)) (m (oLoc d)) _ ?_))
        all_goals try iexact Ho8
        intro x
        delta tile_body.sl.dma0_22 tile_body.sl.dma0_11 tile_body.sl.dma0_2
        simp only [Memref.view_whole, View.read_whole, View.write_whole_univ]
    isplitl [He9 Ho9]
    · isplitl [He9]
      · iapply (Entails.of_eq (show ePts d L 144#32 (k0_off1_inb L 9) (m (eLoc d)) = eBlk d (cL L) (sL L) 9 (m (eLoc d)) from pts_e (F := F) d L 9 _)); iexact He9
      · iapply (Entails.of_eq (show oPts d L 144#32 (k0_off1_inb L 9) (eAsO m d) = oBlk d (cL L) (sL L) 9 (eAsO m d) from pts_o (F := F) d L 9 _))
        iapply (Entails.of_eq (written_block (F := F) d L 144#32 (k0_off1_inb L 9) (m (eLoc d)) (m (oLoc d)) _ ?_))
        all_goals try iexact Ho9
        intro x
        delta tile_body.sl.dma0_24 tile_body.sl.dma0_13 tile_body.sl.dma0_3
        simp only [Memref.view_whole, View.read_whole, View.write_whole_univ]
    isplitl [He10 Ho10]
    · isplitl [He10]
      · iapply (Entails.of_eq (show ePts d L 160#32 (k0_off1_inb L 10) (m (eLoc d)) = eBlk d (cL L) (sL L) 10 (m (eLoc d)) from pts_e (F := F) d L 10 _)); iexact He10
      · iapply (Entails.of_eq (show oPts d L 160#32 (k0_off1_inb L 10) (eAsO m d) = oBlk d (cL L) (sL L) 10 (eAsO m d) from pts_o (F := F) d L 10 _))
        iapply (Entails.of_eq (written_block (F := F) d L 160#32 (k0_off1_inb L 10) (m (eLoc d)) (m (oLoc d)) _ ?_))
        all_goals try iexact Ho10
        intro x
        delta tile_body.sl.dma0_26 tile_body.sl.dma0_15 tile_body.sl.dma0_4
        simp only [Memref.view_whole, View.read_whole, View.write_whole_univ]
    isplitl [He11 Ho11]
    · isplitl [He11]
      · iapply (Entails.of_eq (show ePts d L 176#32 (k0_off1_inb L 11) (m (eLoc d)) = eBlk d (cL L) (sL L) 11 (m (eLoc d)) from pts_e (F := F) d L 11 _)); iexact He11
      · iapply (Entails.of_eq (show oPts d L 176#32 (k0_off1_inb L 11) (eAsO m d) = oBlk d (cL L) (sL L) 11 (eAsO m d) from pts_o (F := F) d L 11 _))
        iapply (Entails.of_eq (written_block (F := F) d L 176#32 (k0_off1_inb L 11) (m (eLoc d)) (m (oLoc d)) _ ?_))
        all_goals try iexact Ho11
        intro x
        delta tile_body.sl.dma0_27 tile_body.sl.dma0_17 tile_body.sl.dma0_5
        simp only [Memref.view_whole, View.read_whole, View.write_whole_univ]
    isplitl [He12 Ho12]
    · isplitl [He12]
      · iapply (Entails.of_eq (show ePts d L 192#32 (k0_off1_inb L 12) (m (eLoc d)) = eBlk d (cL L) (sL L) 12 (m (eLoc d)) from pts_e (F := F) d L 12 _)); iexact He12
      · iapply (Entails.of_eq (show oPts d L 192#32 (k0_off1_inb L 12) (eAsO m d) = oBlk d (cL L) (sL L) 12 (eAsO m d) from pts_o (F := F) d L 12 _))
        iapply (Entails.of_eq (written_block (F := F) d L 192#32 (k0_off1_inb L 12) (m (eLoc d)) (m (oLoc d)) _ ?_))
        all_goals try iexact Ho12
        intro x
        delta tile_body.sl.dma0_28 tile_body.sl.dma0_19 tile_body.sl.dma0_7 tile_body.sl.dma0
        simp only [Memref.view_whole, View.read_whole, View.write_whole_univ]
    isplitl [He13 Ho13]
    · isplitl [He13]
      · iapply (Entails.of_eq (show ePts d L 208#32 (k0_off1_inb L 13) (m (eLoc d)) = eBlk d (cL L) (sL L) 13 (m (eLoc d)) from pts_e (F := F) d L 13 _)); iexact He13
      · iapply (Entails.of_eq (show oPts d L 208#32 (k0_off1_inb L 13) (eAsO m d) = oBlk d (cL L) (sL L) 13 (eAsO m d) from pts_o (F := F) d L 13 _))
        iapply (Entails.of_eq (written_block (F := F) d L 208#32 (k0_off1_inb L 13) (m (eLoc d)) (m (oLoc d)) _ ?_))
        all_goals try iexact Ho13
        intro x
        delta tile_body.sl.dma0_29 tile_body.sl.dma0_21 tile_body.sl.dma0_9 tile_body.sl.dma0_1
        simp only [Memref.view_whole, View.read_whole, View.write_whole_univ]
    isplitl [He14 Ho14]
    · isplitl [He14]
      · iapply (Entails.of_eq (show ePts d L 224#32 (k0_off1_inb L 14) (m (eLoc d)) = eBlk d (cL L) (sL L) 14 (m (eLoc d)) from pts_e (F := F) d L 14 _)); iexact He14
      · iapply (Entails.of_eq (show oPts d L 224#32 (k0_off1_inb L 14) (eAsO m d) = oBlk d (cL L) (sL L) 14 (eAsO m d) from pts_o (F := F) d L 14 _))
        iapply (Entails.of_eq (written_block (F := F) d L 224#32 (k0_off1_inb L 14) (m (eLoc d)) (m (oLoc d)) _ ?_))
        all_goals try iexact Ho14
        intro x
        delta tile_body.sl.dma0_30 tile_body.sl.dma0_23 tile_body.sl.dma0_11 tile_body.sl.dma0_2
        simp only [Memref.view_whole, View.read_whole, View.write_whole_univ]
    · isplitl [He15]
      · iapply (Entails.of_eq (show ePts d L 240#32 (k0_off1_inb L 15) (m (eLoc d)) = eBlk d (cL L) (sL L) 15 (m (eLoc d)) from pts_e (F := F) d L 15 _)); iexact He15
      · iapply (Entails.of_eq (show oPts d L 240#32 (k0_off1_inb L 15) (eAsO m d) = oBlk d (cL L) (sL L) 15 (eAsO m d) from pts_o (F := F) d L 15 _))
        iapply (Entails.of_eq (written_block (F := F) d L 240#32 (k0_off1_inb L 15) (m (eLoc d)) (m (oLoc d)) _ ?_))
        all_goals try iexact Ho15
        intro x
        delta tile_body.sl.dma0_31 tile_body.sl.dma0_25 tile_body.sl.dma0_13 tile_body.sl.dma0_3
        simp only [Memref.view_whole, View.read_whole, View.write_whole_univ]
  isplitl [Hb0 Hb1 Hb2 Hb3 Hb4 Hb5 Hbufs]
  · isplitl [Hb0]
    · iexists _; iapply (Entails.of_eq (show bPts0 d L _ = (((V d (cV L) (jV L) : Thread nD τ).loc cc0_scratch0 ↦{fullShare} _ : sProp 𝕄)) from rfl)); iexact Hb0
    isplitl [Hb1]
    · iexists _; iapply (Entails.of_eq (show bPts1 d L _ = (((V d (cV L) (jV L) : Thread nD τ).loc cc0_scratch1 ↦{fullShare} _ : sProp 𝕄)) from rfl)); iexact Hb1
    isplitl [Hb2]
    · iexists _; iapply (Entails.of_eq (show bPts2 d L _ = (((V d (cV L) (jV L) : Thread nD τ).loc cc0_scratch2 ↦{fullShare} _ : sProp 𝕄)) from rfl)); iexact Hb2
    isplitl [Hb3]
    · iexists _; iapply (Entails.of_eq (show bPts3 d L _ = (((V d (cV L) (jV L) : Thread nD τ).loc cc0_scratch3 ↦{fullShare} _ : sProp 𝕄)) from rfl)); iexact Hb3
    isplitl [Hb4]
    · iexists _; iapply (Entails.of_eq (show bPts4 d L _ = (((V d (cV L) (jV L) : Thread nD τ).loc cc0_scratch4 ↦{fullShare} _ : sProp 𝕄)) from rfl)); iexact Hb4
    isplitl [Hb5]
    · iexists _; iapply (Entails.of_eq (show bPts5 d L _ = (((V d (cV L) (jV L) : Thread nD τ).loc cc0_scratch5 ↦{fullShare} _ : sProp 𝕄)) from rfl)); iexact Hb5
    iexact Hbufs
  isplitl [Hs6 Hs7 Hs8 Hs9 Hs10 Hs11 Hs12 Hs13 Hs14 Hs15 Hs16 Hs17]
  · isplitl [Hs6]
    · iexact Hs6
    isplitl [Hs7]
    · iexact Hs7
    isplitl [Hs8]
    · iexact Hs8
    isplitl [Hs9]
    · iexact Hs9
    isplitl [Hs10]
    · iexact Hs10
    isplitl [Hs11]
    · iexact Hs11
    isplitl [Hs12]
    · iexact Hs12
    isplitl [Hs13]
    · iexact Hs13
    isplitl [Hs14]
    · iexact Hs14
    isplitl [Hs15]
    · iexact Hs15
    isplitl [Hs16]
    · iexact Hs16
    iexact Hs17
  iexists _; isplitr
  pick_goal 2
  · iexact HO
  · ipureintro
    repeat (first | exact fun p hp => Or.inl hp | apply waits_insert)

end Tile

/-! ## The launch theorem's obligation for a subcore -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__copy_body (coordsV c s) eW (Memref.isWhole_whole _) oW (Memref.isWhole_whole _)
          bW0 (Memref.isWhole_whole _) bW1 (Memref.isWhole_whole _) bW2 (Memref.isWhole_whole _) bW3 (Memref.isWhole_whole _) bW4 (Memref.isWhole_whole _) bW5 (Memref.isWhole_whole _)
          cc0_scratch6 cc0_scratch7 cc0_scratch8 cc0_scratch9 cc0_scratch10 cc0_scratch11 cc0_scratch12 cc0_scratch13 cc0_scratch14 cc0_scratch15 cc0_scratch16 cc0_scratch17) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.CopyKernelIdeal

end
-- ==== Proof.CopyLaunchI.lean ====
/-
  The launch of the block copy. The program is one SparseCore call from @main: the TensorCore hands the two
  SparseCores the table and the result array, each SparseCore hands its sixteen vector subcores their shares, and
  the shares come back the same way. The 512 blocks of sixteen rows are pairwise disjoint and cover both arrays, so
  the whole table (read) and the whole result (written) are exactly the blocks over the two SparseCores, the
  sixteen subcores of each and the sixteen blocks of each subcore; a subcore's share is its own sixteen blocks of
  both arrays, and a SparseCore's share is its subcores' shares, nothing more. Coming back, every block of the result
  holds the table's rows, hence so does the whole result. The first argument is never handed to anyone. Given that
  each subcore's program turns its share of the result into the table's rows over the same blocks, every execution
  of the program ends with the result equal to the table as it was at the start and both arguments as they were.
-/
import proofs.«202649_g20452634264206_cont_8to1_1943_16_alg».proof.Proof.CopyBaseI

noncomputable section

namespace Cert.Proof.CopyKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the launch decides -/

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A SparseCore's share is its subcores' shares -/

omit [FloatOps F] in
/-- The call's subcores are the sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's SparseCores are the two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => tileRes m d (Fin.cast nCore_zero c) s (m (oLoc d))) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (eAsO m d))
          -∗ (bigSep Finset.univ fun s : Fin 16 => tileRes m d (Fin.cast nCore_zero c) s (eAsO m d))))
  rw [bigSep_tasks (F := F) (fun s => tileRes m d (Fin.cast nCore_zero c) s (m (oLoc d))),
    bigSep_tasks (F := F) (fun s => tileRes m d (Fin.cast nCore_zero c) s (eAsO m d))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays are their blocks -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- The table, whole, is its 512 blocks. -/
theorem ePts_blocks (d : Dev nD) (f : Buf (Elt F) (eLoc d)) :
    (eLoc d ↦{fullShare} f : sProp 𝕄) = bigSep Finset.univ fun t : T3 => eLoc d ↦[blkSet3 t]{fullShare} f := by
  rw [← pointsTo_biUnion Finset.univ (ℓ := eLoc d) blkSet3 blk_disjoint, blk_cover]; try rfl

omit [FloatOps F] in
/-- The result, whole, is its 512 blocks. -/
theorem oPts_blocks (d : Dev nD) (f : Buf (Elt F) (oLoc d)) :
    (oLoc d ↦{fullShare} f : sProp 𝕄) = bigSep Finset.univ fun t : T3 => oLoc d ↦[blkSet3 t]{fullShare} f := by
  rw [← pointsTo_biUnion Finset.univ (ℓ := oLoc d) blkSet3 blk_disjoint, blk_cover]; try rfl

omit [FloatOps F] in
/-- Over the blocks' index: SparseCore, then subcore, then the subcore's block. -/
theorem bigSep_T3 (Φ : T3 → sProp 𝕄) :
    bigSep Finset.univ Φ
      = bigSep Finset.univ fun c : Fin 2 => bigSep Finset.univ fun s : Fin 16 => bigSep Finset.univ fun r : Fin 16 => Φ (c, s, r) := by
  rw [BI.bigSep_univ_prod]
  exact bigSep_congr fun c _ => BI.bigSep_univ_prod _

omit [FloatOps F] in
/-- Both arrays whole are every subcore's blocks of both. -/
theorem blocks_eq (d : Dev nD) (f : Buf (Elt F) (eLoc d)) (g : Buf (Elt F) (oLoc d)) :
    (bigSep Finset.univ fun c : Fin 2 => bigSep Finset.univ fun s : Fin 16 => bigSep Finset.univ fun r : Fin 16 =>
        iprop(eBlk d c s r f ∗ oBlk d c s r g))
      = (iprop((eLoc d ↦{fullShare} f) ∗ (oLoc d ↦{fullShare} g)) : sProp 𝕄) := by
  rw [ePts_blocks d f, oPts_blocks d g, ← bigSep_sep', bigSep_T3]

theorem st0_eq (d : Dev nD) : (bigSep Finset.univ fun c : Fin ((K (F := F)).nCore 0) => (P m).st 0 d c)
    = iprop((eLoc d ↦{fullShare} m (eLoc d)) ∗ (oLoc d ↦{fullShare} m (oLoc d))) :=
  (bigSep_cores (F := F) fun c => bigSep Finset.univ fun s : Fin 16 => tileRes m d c s (m (oLoc d))).trans (blocks_eq d _ _)

theorem dn0_eq (d : Dev nD) : (bigSep Finset.univ fun c : Fin ((K (F := F)).nCore 0) => (P m).dn 0 d c)
    = iprop((eLoc d ↦{fullShare} m (eLoc d)) ∗ (oLoc d ↦{fullShare} eAsO m d)) :=
  (bigSep_cores (F := F) fun c => bigSep Finset.univ fun s : Fin 16 => tileRes m d c s (eAsO m d)).trans (blocks_eq d _ _)

/-! ## @main on the TensorCore -/

/-- What the TensorCore ends with: the first argument and the table as they were, the result holding the table's rows. -/
abbrev FIN (d : Dev nD) : sProp 𝕄 :=
  iprop((xLoc d ↦{fullShare} m (xLoc d)) ∗ (eLoc d ↦{fullShare} m (eLoc d)) ∗ (oLoc d ↦{fullShare} eAsO m d))

/-- @main on device `d`'s TensorCore: the one call, handed the table and the result as their blocks; back, the blocks
    joined again. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, He, Ho⟩, -, -⟩, -⟩
  iapply ((K (F := F)).wp_run (D (F := F)) 𝒱 (EH := EH) (P := P m) κ d 0) $$ [Hst Hx He Ho]
  isplitr; · iexact Hctx
  isplitl [Hst]; · iexact Hst
  isplitl [He Ho]
  · rw [st0_eq]
    isplitl [He]; · iexact He
    iexact Ho
  iintro ⟨Hst, Hdn⟩
  ihave Hdn' := (Entails.of_eq (dn0_eq m d)) $$ Hdn
  icases Hdn' with ⟨He, Ho⟩
  imodintro
  isplitl [Hst]; · iexact Hst
  isplitl [Hx]; · iexact Hx
  isplitl [He]; · iexact He
  iexact Ho

/-! ## The final memory -/

def fq (d : Dev nD) (s' : Phys nD τ sig (Elt F)) : Prop :=
  s'.mem.mem (oLoc d) = eAsO m d ∧ s'.mem.mem (xLoc d) = m (xLoc d) ∧ s'.mem.mem (eLoc d) = m (eLoc d)

theorem hfin (d : Dev nD) (s' : Phys nD τ sig (Elt F)) : iprop(FIN m d ∗ SI s') ⊢ (⌜fq m d s'⌝ : sProp 𝕄) := by
  iintro ⟨⟨Hx, He, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := oLoc d) (I := Finset.univ) (q := fullShare) (f := eAsO m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- On every device: the result is the table as it was at the start, and both arguments are as they were. -/
def QC : PUnit × MemSt nD τ sig (Elt F) → Prop := fun r => ∀ c : Dev nD,
  r.2.mem (oLoc c) = eAsO m c ∧ r.2.mem (xLoc c) = m (xLoc c) ∧ r.2.mem (eLoc c) = m (eLoc c)

/-- Given each subcore's task — from its sixteen blocks of both arrays to the same with the result's holding the
    table's rows —, every weakly fair execution of the program from `m` with zero counters terminates in `QC`. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.CopyKernelIdeal

end
-- ==== Proof.LibEdges.lean ====
/-
  The edge pass of a graph convolution: rows of a node array are gathered along the edges' sources and added into the
  rows the edges' targets name. Three facts, over the extended reals:

  * a row gather reads, at edge `e` and column `k`, the operand's row `clamp (idx e)` at column `k`;
  * an update `(e, k)` of an accumulating scatter lands in row `p` only if the target index of edge `e` IS `p`;
  * hence scaling every update of edge `e` by a coefficient that depends only on `e`'s target row can be done once per
    target row after the accumulation — provided the coefficient is a nonnegative real, because on the extended reals
    `(y + z) · c = y · c + z · c` needs `0 ≤ c < ⊤` (it fails for `c < 0` at `y = ⊤, z = ⊥`).
-/
import Idealize.ShloMosaic.PureOps.Ideal
import Idealize.ShloMosaic.Lib.ValueIdx
import Idealize.ShloMosaic.Lib.Pipeline.Value

set_option maxRecDepth 16384

noncomputable section

namespace Cert.Gcn

open Idealize.ShloMosaic Idealize.ShloMosaic.ValueIdx

/-! ## The dimension numbers -/

/-- `x[idx]` for a node array `x : [N, C]` and one index per edge, `idx : [E, 1]`: result `[E, C]`. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[idx]` for a node vector `x : [N]` and one index per edge, `idx : [E, 1]`: result `[E]`. -/
abbrev entryDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The accumulation of edge rows `[E, C]` into node rows `[N, C]` at one target index per edge, `idx : [E, 1]`. -/
abbrev addDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## Gathers read at an index -/

section Gather
variable {α : Type}

/-- The row gather at `(e, k)`: the operand's row `min (idx e) (N − 1)` (the index read signed, negatives at `0`), column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N E C wf) x idx (ix2 e k)
      = x (ix2 ⟨min (idx (ix2 e (0 : Fin 1))).toInt.toNat (N - 1), by omega⟩ k) := by
  unfold Host.gather
  congr 1
  funext a
  refine Fin.ext ?_
  show (rowsDims N E C wf).start (ix2 e k) idx a + (rowsDims N E C wf).batchCoord (ix2 e k) a
    + (rowsDims N E C wf).offCoord (ix2 e k) a = _
  rw [GatherDims.batchCoord_eq_zero _ _ _ List.not_mem_nil]
  have h0 : (rowsDims N E C wf).start (ix2 e k) idx (0 : Fin 2) + 0 + (rowsDims N E C wf).offCoord (ix2 e k) (0 : Fin 2)
      = min (idx (ix2 e (0 : Fin 1))).toInt.toNat (N - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e k) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowsDims N E C wf).start (ix2 e k) idx (1 : Fin 2) + 0 + (rowsDims N E C wf).offCoord (ix2 e k) (1 : Fin 2)
      = k.val := by
    have hst : (rowsDims N E C wf).start (ix2 e k) idx (1 : Fin 2) = 0 := by
      unfold GatherDims.start
      rw [dif_neg (show (1 : Fin 2) ∉ ([0] : List (Fin 2)) from by decide)]
    rw [hst]
    simp only [Nat.zero_add]
    rfl
  match a with
  | ⟨0, _⟩ => exact h0
  | ⟨1, _⟩ => exact h1

/-- The entry gather at `e`: the operand at `min (idx e) (N − 1)`. -/
theorem gather_entry_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (entryDims N E wf).start (ix1 e) idx 0 + (entryDims N E wf).batchCoord (ix1 e) 0
    + (entryDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N E wf).startIndexMap from List.mem_singleton.mpr rfl)]
  have hsi : (entryDims N E wf).siIdx (ix1 e) ⟨List.idxOf (0 : Fin 1) (entryDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Where an update lands -/

/-- An update `(e, k)` lands in row `i 0` only if edge `e`'s target index, read signed, is that row. -/
theorem resultIdx_row {N E C w : Nat}
    (wf : ScatterDims.WF ⟨2, ![N, C]⟩ ⟨2, ![E, 1]⟩ ⟨2, ![E, C]⟩ [1] [0] [0] 1)
    (idx : IVec ⟨2, ![E, 1]⟩ w) (e : Fin E) (k : Fin C) (i : (⟨2, ![N, C]⟩ : Shape).Idx)
    (h : (addDims N E C wf).resultIdx? (ix2 e k) idx = some i) :
    (idx (ix2 e (0 : Fin 1))).toInt = ((i 0).val : ℤ) := by
  have hs : (addDims N E C wf).start (ix2 e k) idx (0 : Fin 2) = (idx (ix2 e (0 : Fin 1))).toInt := by
    unfold ScatterDims.start
    rw [dif_pos (show (0 : Fin 2) ∈ (addDims N E C wf).scatterDimsToOperandDims from List.mem_singleton.mpr rfl)]
    have hsi : (addDims N E C wf).siIdx (ix2 e k) ⟨List.idxOf (0 : Fin 2) (addDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (addDims N E C wf).window (ix2 e k) (0 : Fin 2) = 0 := by
    unfold ScatterDims.window
    rw [dif_neg (fun h => by simp [Shape.kept] at h)]
  unfold ScatterDims.resultIdx? at h
  split at h
  · rename_i hb
    have h0 := congrArg (fun f : (⟨2, ![N, C]⟩ : Shape).Idx => (f 0).val) (Option.some.inj h)
    simp only at h0
    have hb0 := (hb 0).1
    rw [hs, hw] at hb0 h0
    omega
  · cases h

/-! ## Scaling after the accumulation -/

/-- On the extended reals a finite sum times a nonnegative real is the sum of the products. -/
theorem sum_mul_of_nonneg_real {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- THE EDGE LAW. Accumulate updates `U` from a zero array and then scale row `p` by `cN p`; or scale update `(e, k)` by
    `cE e` first and accumulate: the same, when `cN` is a nonnegative real everywhere and `cE e = cN p` whenever edge `e`
    targets row `p`. -/
theorem scatter_scaled {N E C w : Nat}
    (wf : ScatterDims.WF ⟨2, ![N, C]⟩ ⟨2, ![E, 1]⟩ ⟨2, ![E, C]⟩ [1] [0] [0] 1)
    (dB : IVec ⟨2, ![E, 1]⟩ w) (U : (⟨2, ![E, C]⟩ : Shape).Idx → EReal) (cE : Fin E → EReal) (cN : Fin N → EReal)
    (hc : ∀ p, 0 ≤ cN p ∧ cN p ≠ ⊤)
    (hcE : ∀ (e : Fin E) (p : Fin N), (dB (ix2 e (0 : Fin 1))).toInt = (p.val : ℤ) → cE e = cN p)
    (i : (⟨2, ![N, C]⟩ : Shape).Idx) :
    Ideal.hostScatterAdd (addDims N E C wf) (fun _ => 0) dB U i * cN ⟨(i 0).val, idx2_lt0 i⟩
      = Ideal.hostScatterAdd (addDims N E C wf) (fun _ => 0) dB (fun j => U j * cE (j 0)) i := by
  unfold Ideal.hostScatterAdd
  rw [zero_add, zero_add]
  refine (sum_mul_of_nonneg_real _ _ (hc _).1 (hc _).2).trans ?_
  refine Finset.sum_congr rfl fun j hj => ?_
  obtain ⟨e, k, rfl⟩ : ∃ (e : Fin E) (k : Fin C), j = ix2 e k := ⟨j 0, j 1, eq_ix2 j⟩
  have hrow := resultIdx_row wf dB e k i (Finset.mem_filter.mp hj).2
  show U (ix2 e k) * cN ⟨(i 0).val, idx2_lt0 i⟩ = U (ix2 e k) * cE e
  rw [hcE e ⟨(i 0).val, idx2_lt0 i⟩ hrow]

end Cert.Gcn

end
-- ==== Proof.RefRun.lean ====
import proofs.«202649_g20452634264206_cont_8to1_1943_16_alg».proof.Defs
import proofs.«202649_g20452634264206_cont_8to1_1943_16_alg».proof.Proof.Gen.ReferenceIdeal
import Idealize.ShloMosaic.Lib.StableHlo.Run
import Idealize.ShloMosaic.Lib.ValueIdx
import Idealize.ShloMosaic.Lib.Affine
import Idealize.ShloMosaic.PureOps.Reduce
import proofs.«202649_g20452634264206_cont_8to1_1943_16_alg».proof.Proof.LibEdges

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's twenty-four host operations in order: the iota of row numbers, then the row lookup's
    own operations over its call's buffers, the nested three-way choice written at its place. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select ]

set_option maxRecDepth 1024 in
/-- @main is that straight line: the two functions' bodies substituted at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- From any memory with zero counters, every weakly fair execution of @main terminates, each buffer ending at the
    fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The value: the looked-up rows are the rows

Row `i` of the result is row `idx i` of the argument, where `idx i` is the row number `i` itself: it is never
negative, so the wrap by the row count is not taken; it lies in `[0, 8191]`, so the in-range test holds in every
row and the fill value is never chosen; and the lookup's clamp of a start index into `[0, 8191]` leaves it alone. -/

section Value

open Idealize.ShloMosaic.ValueIdx

/-- A row number below 8192 reads the same signed. -/
theorem toInt_row (n : Nat) (h : n < 8192) : (BitVec.ofNat 32 n).toInt = (n : ℤ) := by
  have hN : (BitVec.ofNat 32 n).toNat = n := by rw [BitVec.toNat_ofNat]; omega
  rw [BitVec.toInt_eq_toNat_of_lt (by omega), hN]

/-- A row number is not negative … -/
theorem not_slt_zero (n : Nat) (h : n < 8192) : IntOp.cmpi .slt (BitVec.ofNat 32 n) 0#32 = 0#1 := by
  refine eq_zero_of_ne_one fun e => ?_
  have h' := IntOp.cmpi_slt.1 e
  rw [toInt_row n h, show (0#32 : BitVec 32).toInt = 0 from by decide] at h'
  omega

/-- … it is at least zero … -/
theorem sge_zero (n : Nat) (h : n < 8192) : IntOp.cmpi .sge (BitVec.ofNat 32 n) 0#32 = 1#1 :=
  IntOp.cmpi_sge.2 (by rw [toInt_row n h, show (0#32 : BitVec 32).toInt = 0 from by decide]; omega)

/-- … and at most the last row's number. -/
theorem sle_last (n : Nat) (h : n < 8192) : IntOp.cmpi .sle (BitVec.ofNat 32 n) 8191#32 = 1#1 :=
  IntOp.cmpi_sle.2 (by rw [toInt_row n h, show (8191#32 : BitVec 32).toInt = 8191 from by decide]; omega)

/-- The index of each row: its number, plus the row count where the number is negative. -/
def rowIdx : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32)))
    (iotaInDim S8192 32 0)

/-- The indices as one column. -/
def rowCol : IVec S8192x1 32 := broadcastInDim S8192x1 ![0] bcast_S8192_S8192x1_0 rowIdx

/-- Per row: the index is at least zero and at most the last row's number. -/
def inRange : IVec S8192x1 1 :=
  andi (cmpi .sge rowCol (broadcastInDim S8192x1 ![] bcast_S_S8192x1 (constantI S_ 32 0#32)))
    (cmpi .sle rowCol (broadcastInDim S8192x1 ![0, 1] bcast_S1x1_S8192x1_0_1
      (broadcastInDim S1x1 ![1] bcast_S1_S1x1_1 (constantI S1 32 8191#32))))

/-- The test reduced by conjunction over the column's one entry per row. -/
def rowOk : IVec S8192 1 :=
  Host.reduce IntOp.andi inRange (constantI S_ 1 1#1) reducesTo_S8192x1_S8192_d1 h_S_

/-- What @main computes of its second argument: the rows looked up at `rowCol` where `rowOk`, the fill value elsewhere. -/
def out (x : FVec F S8192x1024 .f32) : FVec F S8192x1024 .f32 :=
  select (broadcastInDim S8192x1024 ![0] bcast_S8192_S8192x1024_0 rowOk)
    (Host.gather gather_S8192x1024_S8192x1_S8192x1024_1_0_n_n_0_1_11024 x rowCol)
    (broadcastInDim S8192x1024 ![] bcast_S_S8192x1024 (constant S_ .f32 0x7FC00000#32))

theorem rowIdx_apply (j : S8192.Idx) : rowIdx j = BitVec.ofNat 32 (j 0).val := by
  show Scalar.select (IntOp.cmpi .slt (BitVec.ofNat 32 (j 0).val) 0#32)
    (IntOp.addi (BitVec.ofNat 32 (j 0).val) 8192#32) (BitVec.ofNat 32 (j 0).val) = _
  rw [not_slt_zero _ (j 0).isLt, select_zero]

theorem rowCol_apply (i : S8192x1.Idx) : rowCol i = BitVec.ofNat 32 (i 0).val :=
  (rowIdx_apply _).trans rfl

theorem inRange_apply (i : S8192x1.Idx) : inRange i = 1#1 := by
  show IntOp.andi (IntOp.cmpi .sge (rowCol i) 0#32) (IntOp.cmpi .sle (rowCol i) 8191#32) = 1#1
  rw [rowCol_apply, sge_zero _ (idx2_lt0 i), sle_last _ (idx2_lt0 i)]
  decide

/-- A conjunction of ones from one is one. -/
theorem foldl_andi_ones {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi 1#1 1#1 = 1#1 from by decide]
    exact foldl_andi_ones f hf l

theorem rowOk_apply (j : S8192.Idx) : rowOk j = 1#1 := by
  unfold rowOk
  rw [Host.reduce_eq_foldl]
  exact foldl_andi_ones inRange inRange_apply _

/-- The looked-up array is the argument. -/
theorem out_eq (x : FVec F S8192x1024 .f32) : out x = x := by
  funext j
  obtain ⟨e, k, rfl⟩ : ∃ (e : Fin 8192) (k : Fin 1024), j = ix2 e k := ⟨j 0, j 1, eq_ix2 j⟩
  show Scalar.select (rowOk _) (Host.gather gather_S8192x1024_S8192x1_S8192x1024_1_0_n_n_0_1_11024 x rowCol (ix2 e k)) _ = _
  rw [rowOk_apply, select_one]
  refine (Cert.Gcn.gather_rows_apply (N := 8192) (E := 8192) (C := 1024) (by decide)
    gather_S8192x1024_S8192x1_S8192x1024_1_0_n_n_0_1_11024_wf x rowCol e k).trans ?_
  have hrow : min (rowCol (ix2 e (0 : Fin 1))).toInt.toNat (8192 - 1) = e.val := by
    rw [rowCol_apply]
    show min (BitVec.ofNat 32 e.val).toInt.toNat (8192 - 1) = e.val
    rw [toInt_row _ e.isLt, Int.toNat_natCast]
    have := e.isLt
    omega
  refine congrArg x (funext fun a => Fin.ext ?_)
  match a with
  | ⟨0, _⟩ => exact hrow
  | ⟨1, _⟩ => rfl

end Value

attribute [local irreducible] Host.reduce Host.gather in
set_option maxRecDepth 8192 in
set_option maxHeartbeats 400000 in
/-- The fold at the result buffer is `out` of the second argument's launch contents, by computation: each operation's
    result read at its own buffer, the typed references' moves the identity at these literal references. -/
theorem after_v1 (V : Valuation τ sig (Elt F)) :
    after ops V (main_v1 : DevRef τ sig) = out (V (main_arg1 : DevRef τ sig)) := by
  after_results_simp
  rfl

theorem after_arg0 (V : Valuation τ sig (Elt F)) :
    after ops V (main_arg0 : DevRef τ sig) = V (main_arg0 : DevRef τ sig) := by
  simp only [after_cons, after_nil]
  rfl

theorem after_arg1 (V : Valuation τ sig (Elt F)) :
    after ops V (main_arg1 : DevRef τ sig) = V (main_arg1 : DevRef τ sig) := by
  simp only [after_cons, after_nil]
  rfl

/-- @main runs and leaves its two arguments as they were. -/
theorem frame_run (m : (ℓ : Loc nD τ sig) → Buf (Elt F) ℓ) (g : Dev nD → PrngReg) :
    θ_run defs (onTc (τ := τ) (main (F := F))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_arg0).trans (after_arg0 _), (h c main_arg1).trans (after_arg1 _)⟩)
    (run_main m g)

/-- @main runs, its result ends as the second argument's contents at the start, and both arguments end unchanged. -/
theorem run (m : (ℓ : Loc nD τ sig) → Buf (Elt F) ℓ) (g : Dev nD → PrngReg) :
    θ_run defs (onTc (τ := τ) (main (F := F))) ⟨m, fun _ => 0, g⟩ fun r => ∀ c : Dev nD,
      r.2.mem ((c.tc : Thread nD τ).loc main_v1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c main_v1).trans (after_v1 _)).trans (out_eq _),
      (h c main_arg0).trans (after_arg0 _), (h c main_arg1).trans (after_arg1 _)⟩)
    (run_main m g)

end Cert.ReferenceIdeal.RefRun

end
-- ==== Proof.lean ====
/-
  The claim: the kernel copies the table. The printed program hands the 8192 × 1024 table to the 32 vector subcores
  in 512 blocks of sixteen rows; each subcore moves its sixteen blocks through staging buffers into the same rows of
  the result, so every execution ends with the result equal to the table and the arguments untouched — at the
  word-level instance and at the exact one alike, the program moving words without computing on them. The reference
  gathers the table's rows at the indices 0, 1, …, 8191, each in range, so its result is the table too. Hence the three
  frames, and the two results equal element by element as extended reals (both are the table at the start, and the
  runs start from memories agreeing on it). The idealization rewrote nothing, so there is nothing to preserve.
-/
import proofs.«202649_g20452634264206_cont_8to1_1943_16_alg».proof.Defs
import proofs.«202649_g20452634264206_cont_8to1_1943_16_alg».proof.Proof.Gen.Kernel
import proofs.«202649_g20452634264206_cont_8to1_1943_16_alg».proof.Proof.Gen.Kernel.Skeleton
import proofs.«202649_g20452634264206_cont_8to1_1943_16_alg».proof.Proof.Gen.KernelIdeal
import proofs.«202649_g20452634264206_cont_8to1_1943_16_alg».proof.Proof.Gen.KernelIdeal.Skeleton
import proofs.«202649_g20452634264206_cont_8to1_1943_16_alg».proof.Proof.Gen.ReferenceIdeal
import proofs.«202649_g20452634264206_cont_8to1_1943_16_alg».proof.Proof.Gen.Pre_finite_inputs
import proofs.«202649_g20452634264206_cont_8to1_1943_16_alg».proof.Proof.CopyTileW
import proofs.«202649_g20452634264206_cont_8to1_1943_16_alg».proof.Proof.CopyLaunchW
import proofs.«202649_g20452634264206_cont_8to1_1943_16_alg».proof.Proof.CopyTileI
import proofs.«202649_g20452634264206_cont_8to1_1943_16_alg».proof.Proof.CopyLaunchI
import proofs.«202649_g20452634264206_cont_8to1_1943_16_alg».proof.Proof.RefRun
import Idealize.ShloMosaic.Adequacy
import Idealize.ShloMosaic.Init

noncomputable section

namespace Cert.Proof

open Idealize.ShloMosaic Idealize.SL.Sem

/-- The word-level program runs, and its arguments end as they began. -/
theorem frame_k : Cert.frame_Kernel (hKernel := Cert.Kernel.Gen.facts) (hPre_finite_inputs := Cert.Pre_finite_inputs.Gen.facts) := fun m g _ =>
  (θ_run Cert.Kernel.defs _ _).mono (fun _ h c => ⟨(h c).2.1, (h c).2.2⟩)
    (CopyKernel.run_main (F := Bits) m g (CopyKernel.tileObl m CopyKernel.facts))

/-- The same program read at the exact instance runs, and its arguments end as they began. -/
theorem frame_ki : Cert.frame_KernelIdeal (hKernelIdeal := Cert.KernelIdeal.Gen.facts) (hPre_finite_inputs := Cert.Pre_finite_inputs.Gen.facts) := fun m g _ =>
  (θ_run Cert.KernelIdeal.defs _ _).mono (fun _ h c => ⟨(h c).2.1, (h c).2.2⟩)
    (CopyKernelIdeal.run_main (F := Ideal) m g (CopyKernelIdeal.tileObl m CopyKernelIdeal.facts))

/-- The reference runs, and its arguments end as they began. -/
theorem frame_ri : Cert.frame_ReferenceIdeal (hReferenceIdeal := Cert.ReferenceIdeal.Gen.facts) (hPre_finite_inputs := Cert.Pre_finite_inputs.Gen.facts) := fun m g _ =>
  (θ_run Cert.ReferenceIdeal.defs _ _).mono (fun _ h c => (h c).2) (Cert.ReferenceIdeal.RefRun.run (F := Ideal) m g)

/-- Both programs end with the table as it was at the start: the kernel's blocks hold its rows, the reference gathered
    its rows in order; and the two runs start from memories that agree on the table. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => CopyKernelIdeal.eAsO m c, ?_, ?_⟩
  · exact (θ_run Cert.KernelIdeal.defs _ _).mono (fun _ h c => ⟨(h c).1, (h c).2.1, (h c).2.2⟩)
      (CopyKernelIdeal.run_main (F := Ideal) m g (CopyKernelIdeal.tileObl m CopyKernelIdeal.facts))
  · refine (θ_run Cert.ReferenceIdeal.defs _ _).mono (fun _ h c => ⟨(h c).1.trans ?_, (h c).2.1, (h c).2.2⟩)
      (Cert.ReferenceIdeal.RefRun.run (F := Ideal) m' g')
    exact (hagree c).2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
